-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400 : Shape := ⟨1, ![400]⟩

abbrev nBuf : Space → Nat
  | .hbm => 6
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x1, .f32⟩
  | .hbm, ⟨4, _⟩ => ⟨S10000x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S128x128, .f32⟩
  | .local _ .vmem, ⟨5, _⟩ => ⟨S400x1, .f32⟩
  | .local _ .vmem, ⟨6, _⟩ => ⟨S400x1, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S400x128, .f32⟩
  | .local _ .vmem, ⟨13, _⟩ => ⟨S400x128, .f32⟩
  | .local _ .vmem, ⟨14, _⟩ => ⟨S400x1, .f32⟩
  | .local _ .vmem, ⟨15, _⟩ => ⟨S400x1, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  broadcasts_S400x1_S400x128 : S400x1.Broadcasts S400x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x1_S400x1 : S400x1.ShapeCasts S400x1
  shapeCasts_S400x128_S400x128 : S400x128.ShapeCasts S400x128
  dot_S400x128_S128x128_S400x128_1_1_0_0_n_n_wf : DotDims.WF S400x128 S128x128 S400x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S400x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩
abbrev S1x10000 : Shape := ⟨2, ![1, 10000]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x10000, .i32⟩
  | .hbm, ⟨4, _⟩ => ⟨S10000x10000, .i32⟩
  | .hbm, ⟨5, _⟩ => ⟨S_, .i32⟩
  | .hbm, ⟨6, _⟩ => ⟨S10000x10000, .i32⟩
  | .hbm, ⟨7, _⟩ => ⟨S10000x10000, .i32⟩
  | .hbm, ⟨8, _⟩ => ⟨S10000x10000, .i1⟩
  | .hbm, ⟨9, _⟩ => ⟨S10000x10000, .f32⟩
  | .hbm, ⟨10, _⟩ => ⟨S10000x10000, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x10000, .f32⟩
  | .hbm, ⟨21, _⟩ => ⟨S10000x10000, .f32⟩
  | .hbm, ⟨22, _⟩ => ⟨S1x10000, .f32⟩
  | .hbm, ⟨23, _⟩ => ⟨S10000x10000, .f32⟩
  | .hbm, ⟨24, _⟩ => ⟨S10000x10000, .f32⟩
  | .hbm, ⟨25, _⟩ => ⟨S128x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  transposes_S128x128_S128x128_1_0 : S128x128.Transposes [1, 0] S128x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The normalized graph-convolution layer as ONE function of the three argument arrays, over the extended reals.

  For an adjacency matrix `A` (n × n, n = 10000), features `X` (n × 128) and weights `W` (128 × 128):
    deg r   = (Σ_k A r k) + 1                       the row sum with the self loop
    dinv r  = 1 / √(max (deg r) ε)                  the inverse square root of the clamped degree
    lin r q = Σ_k X r k · W q k                     the linear layer X · Wᵀ
    g r q   = dinv r · lin r q                      the rows scaled once
    out r q = max (dinv r · ((Σ_j A r j · g j q) + g r q)) 0
  which is relu (D^(-1/2) (A + I) D^(-1/2) (X Wᵀ)) with the normalized matrix never formed: the self loop's
  term is `g r q` outside the sum, and the row scaling is taken out of the sum.
  The two float literals (1 and ε = 1e-8 rounded to binary32) are kept as their words.
-/
import Idealize.ShloMosaic.PureOps.Ideal
import Idealize.ShloMosaic.Lib.ValueIdx

noncomputable section

open scoped BigOperators

namespace Cert.Spec

open Idealize.ShloMosaic Idealize.ShloMosaic.ValueIdx

/-- The adjacency matrix's shape. -/
abbrev SA : Shape := ⟨2, ![10000, 10000]⟩
/-- The features' (and the result's) shape. -/
abbrev SX : Shape := ⟨2, ![10000, 128]⟩
/-- The weights' shape. -/
abbrev SW : Shape := ⟨2, ![128, 128]⟩
/-- The shape of one value per row, kept as a column. -/
abbrev SD : Shape := ⟨2, ![10000, 1]⟩

/-- The literal 1.0. -/
def one : EReal := Ideal.ofBits .f32 0x3F800000#32
/-- The literal ε: 1e-8 rounded to binary32. -/
def eps : EReal := Ideal.ofBits .f32 0x322BCC77#32

/-- Row `r`'s degree with the self loop: the row sum plus one. -/
def deg (adj : SA.Idx → EReal) (r : Fin 10000) : EReal := (∑ k : Fin 10000, adj (ix2 r k)) + one

/-- The inverse square root of row `r`'s degree clamped below at ε. -/
def dinv (adj : SA.Idx → EReal) (r : Fin 10000) : EReal := Ideal.rsqrt (max (deg adj r) eps)

/-- The linear layer `X · Wᵀ` at row `r`, column `q`. -/
def lin (x : SX.Idx → EReal) (W : SW.Idx → EReal) (r : Fin 10000) (q : Fin 128) : EReal :=
  ∑ k : Fin 128, x (ix2 r k) * W (ix2 q k)

/-- The linear layer's rows scaled by the inverse square roots. -/
def g (adj : SA.Idx → EReal) (x : SX.Idx → EReal) (W : SW.Idx → EReal) (r : Fin 10000) (q : Fin 128) : EReal :=
  dinv adj r * lin x W r q

/-- The layer's result at row `r`, column `q`. -/
def out (adj : SA.Idx → EReal) (x : SX.Idx → EReal) (W : SW.Idx → EReal) (r : Fin 10000) (q : Fin 128) : EReal :=
  max (dinv adj r * ((∑ j : Fin 10000, adj (ix2 r j) * g adj x W j q) + g adj x W r q)) 0

/-- The inverse square roots as a column array. -/
def dinvArr (adj : SA.Idx → EReal) : SD.Idx → EReal := fun i => dinv adj (i 0)
/-- The scaled linear layer as an array. -/
def gArr (adj : SA.Idx → EReal) (x : SX.Idx → EReal) (W : SW.Idx → EReal) : SX.Idx → EReal := fun i => g adj x W (i 0) (i 1)
/-- The result as an array. -/
def outArr (adj : SA.Idx → EReal) (x : SX.Idx → EReal) (W : SW.Idx → EReal) : SX.Idx → EReal := fun i => out adj x W (i 0) (i 1)

end Cert.Spec

end
-- ==== Proof.Lit.lean ====
/-
  The float literals the reference program and the finiteness precondition spell, as the extended reals their
  binary32 words denote. One module states them all, so that the words' decoding is unfolded in one place.
-/
import Idealize.ShloMosaic.PureOps.Ideal
import Idealize.ShloMosaic.Lib.IdealHost

noncomputable section

namespace Cert.Lit

open Idealize.ShloMosaic

/-- The word `0x3F800000` denotes the real one. -/
theorem one_eq : Ideal.ofBits .f32 0x3F800000#32 = ((1 : ℝ) : EReal) := by
  rw [Ideal.ofBits_one_f32]; norm_cast

/-- The word `0xBF000000` denotes the real minus one half. -/
theorem neg_half_eq : Ideal.ofBits .f32 0xBF000000#32 = ((-1 / 2 : ℝ) : EReal) := by
  simp [Ideal.ofBits, Ideal.ieee, -EReal.coe_mul, -EReal.coe_neg]; norm_num

/-- The word `0x322BCC77` (1e-8 rounded to binary32) denotes a positive real. -/
theorem eps_pos : ∃ e : ℝ, 0 < e ∧ Ideal.ofBits .f32 0x322BCC77#32 = (e : EReal) := by
  refine ⟨(11258999 : ℝ) * (2 : ℝ) ^ (-50 : Int), by positivity, ?_⟩
  simp [Ideal.ofBits, Ideal.ieee, -EReal.coe_mul]

/-- The word `0x7F800000` denotes plus infinity. -/
theorem inf_eq : Ideal.ofBits .f32 0x7F800000#32 = ⊤ := by
  simp [Ideal.ofBits, Ideal.ieee]

/-- The word `0x00000000` denotes zero. -/
theorem zero_eq : Ideal.ofBits .f32 0x00000000#32 = 0 := Ideal.ofBits_zero_f32

end Cert.Lit

end
-- ==== Proof.RefLaw.lean ====
/-
  The algebra behind the normalized graph-convolution layer, over abstract finite index types.

  With `a` a row of the adjacency matrix, `δ` the identity's row, `p` the inverse square roots of the clamped
  degrees and `h` a column of the linear layer, the layer's two spellings agree on real entries:
      Σ_j ((a_j + δ_j) · p_r) · p_j · h_j  =  p_r · ((Σ_j a_j · (p_j · h_j)) + p_r · h_r).
  Distributivity fails at the infinities of the extended reals, so the entries are real by hypothesis; the
  identity is proved over the reals and carried across the coercion. Beside it: a row sum of `a + δ` is the row
  sum of `a` plus one (no finiteness needed: extended-real addition is a commutative monoid), and a positive real
  to the power minus one half is its inverse square root.
-/
import Idealize.ShloMosaic.PureOps.Ideal

noncomputable section

open scoped BigOperators

namespace Cert.RefLaw

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of real entries is real. -/
theorem sum_real {ι : Type} (s : Finset ι) (F : ι → EReal) (hF : ∀ i, ∃ x : ℝ, F i = (x : EReal)) :
    ∃ y : ℝ, ∑ i ∈ s, F i = (y : EReal) := by
  choose f hf using hF
  exact ⟨∑ i ∈ s, f i, by rw [coe_sum]; exact Finset.sum_congr rfl fun i _ => hf i⟩

/-- A finite sum of products of real entries is real. -/
theorem sum_mul_real {ι : Type} (s : Finset ι) (F G : ι → EReal) (hF : ∀ i, ∃ x : ℝ, F i = (x : EReal))
    (hG : ∀ i, ∃ x : ℝ, G i = (x : EReal)) : ∃ y : ℝ, ∑ i ∈ s, F i * G i = (y : EReal) := by
  refine sum_real s _ fun i => ?_
  obtain ⟨x, hx⟩ := hF i
  obtain ⟨y, hy⟩ := hG i
  exact ⟨x * y, by rw [hx, hy, EReal.coe_mul]⟩

/-- The row sum of a matrix plus the identity, from zero, is the row sum plus one. -/
theorem deg_law {n : ℕ} (A : Fin n → EReal) (r : Fin n) :
    (0 : EReal) + ∑ k, (A k + (if r = k then (1 : EReal) else 0)) = (∑ k, A k) + 1 := by
  rw [zero_add, Finset.sum_add_distrib, Finset.sum_ite_eq Finset.univ r (fun _ => (1 : EReal)),
    if_pos (Finset.mem_univ r)]

/-- A positive real to the power minus one half is its inverse square root. -/
theorem pow_neg_half (m : ℝ) (hm : 0 < m) :
    Ideal.pow (m : EReal) ((-1 / 2 : ℝ) : EReal) = Ideal.rsqrt (m : EReal) := by
  rw [Ideal.pow_coe_coe, Ideal.rsqrt_coe, if_neg (not_lt.2 hm.le), if_neg hm.ne']
  refine congrArg _ ?_
  show m ^ (-1 / 2 : ℝ) = (Real.sqrt m)⁻¹
  rw [Real.sqrt_eq_rpow, show (-1 / 2 : ℝ) = -(1 / 2) by norm_num]
  exact Real.rpow_neg hm.le (1 / 2)

/-- The clamp of a real below at a positive real is a positive real. -/
theorem max_real (d e : ℝ) (he : 0 < e) :
    ∃ m : ℝ, 0 < m ∧ max (d : EReal) (e : EReal) = (m : EReal) :=
  ⟨max d e, lt_max_of_lt_right he, (EReal.coe_strictMono.monotone.map_max).symm⟩

/-- On a real clamped below at a positive real, the power minus one half is the inverse square root. -/
theorem dinv_law (d e : ℝ) (he : 0 < e) :
    Ideal.pow (max (d : EReal) (e : EReal)) ((-1 / 2 : ℝ) : EReal) = Ideal.rsqrt (max (d : EReal) (e : EReal)) := by
  obtain ⟨m, hm, h⟩ := max_real d e he
  rw [h]; exact pow_neg_half m hm

/-- The inverse square root of a real clamped below at a positive real is real. -/
theorem rsqrt_real (d e : ℝ) (he : 0 < e) :
    ∃ p : ℝ, Ideal.rsqrt (max (d : EReal) (e : EReal)) = (p : EReal) := by
  obtain ⟨m, hm, h⟩ := max_real d e he
  exact ⟨(Real.sqrt m)⁻¹, by rw [h, Ideal.rsqrt_coe, if_neg (not_lt.2 hm.le), if_neg hm.ne']⟩

/-- The layer's two spellings agree, over the reals. -/
theorem sum_law_real {n : ℕ} (a p h : Fin n → ℝ) (r : Fin n) :
    ∑ j, ((a j + (if r = j then (1 : ℝ) else 0)) * p r) * p j * h j
      = p r * ((∑ j, a j * (p j * h j)) + p r * h r) := by
  have e : ∀ j, ((a j + (if r = j then (1 : ℝ) else 0)) * p r) * p j * h j
      = p r * (a j * (p j * h j)) + (if r = j then p r * (p j * h j) else 0) := by
    intro j; split_ifs <;> ring
  rw [Finset.sum_congr rfl fun j _ => e j, Finset.sum_add_distrib,
    Finset.sum_ite_eq Finset.univ r (fun j => p r * (p j * h j)), if_pos (Finset.mem_univ r), ← Finset.mul_sum]
  ring

/-- The layer's two spellings agree on real entries of the extended reals. -/
theorem sum_law {n : ℕ} (A P H : Fin n → EReal) (hA : ∀ j, ∃ x : ℝ, A j = (x : EReal))
    (hP : ∀ j, ∃ x : ℝ, P j = (x : EReal)) (hH : ∀ j, ∃ x : ℝ, H j = (x : EReal)) (r : Fin n) :
    ∑ j, ((A j + (if r = j then (1 : EReal) else 0)) * P r) * P j * H j
      = P r * ((∑ j, A j * (P j * H j)) + P r * H r) := by
  choose a ha using hA
  choose p hp using hP
  choose h hh using hH
  obtain rfl : A = fun j => (a j : EReal) := funext ha
  obtain rfl : P = fun j => (p j : EReal) := funext hp
  obtain rfl : H = fun j => (h j : EReal) := funext hh
  have e1 : ∀ j, (((a j : EReal) + (if r = j then (1 : EReal) else 0)) * (p r : EReal)) * (p j : EReal) * (h j : EReal)
      = ((((a j + (if r = j then (1 : ℝ) else 0)) * p r) * p j * h j : ℝ) : EReal) := by
    intro j; split_ifs <;> norm_cast
  have e2 : ∀ j, (a j : EReal) * ((p j : EReal) * (h j : EReal)) = ((a j * (p j * h j) : ℝ) : EReal) := by
    intro j; norm_cast
  show ∑ j, (((a j : EReal) + (if r = j then (1 : EReal) else 0)) * (p r : EReal)) * (p j : EReal) * (h j : EReal)
      = (p r : EReal) * ((∑ j, (a j : EReal) * ((p j : EReal) * (h j : EReal))) + (p r : EReal) * (h r : EReal))
  rw [Finset.sum_congr rfl fun j _ => e1 j, Finset.sum_congr rfl fun j _ => e2 j, ← coe_sum, ← coe_sum,
    ← EReal.coe_mul, ← EReal.coe_add, ← EReal.coe_mul]
  exact congrArg _ (sum_law_real a p h r)

end Cert.RefLaw

end
-- ==== Proof.RefValue.lean ====
/-
  The reference program's result, read at an index and brought to the specification.

  Each stage of the reference is read at an index given by its coordinates: the identity matrix's entry is one on
  the diagonal and zero off it; the degree's power minus one half is broadcast along rows and along columns; the
  two matrix products are sums over the contracted coordinate. What is left is the algebraic law of the layer on
  real entries.
-/
import proofs.«129218_g66864050864945_cont_9to1_m_323_3_alg».proof.Proof.Gen.ReferenceIdeal.Read
import proofs.«129218_g66864050864945_cont_9to1_m_323_3_alg».proof.Proof.Spec
import proofs.«129218_g66864050864945_cont_9to1_m_323_3_alg».proof.Proof.Lit
import proofs.«129218_g66864050864945_cont_9to1_m_323_3_alg».proof.Proof.RefLaw
import Idealize.ShloMosaic.Lib.Affine
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- Two row numbers, as 32-bit words, are equal exactly when the rows are. -/
theorem delta_word (r j : Fin 10000) :
    IntOp.cmpi .eq (IntOp.addi (BitVec.ofNat 32 r.val) 0#32) (BitVec.ofNat 32 j.val)
      = if r = j then 1#1 else 0#1 := by
  have hr : (BitVec.ofNat 32 r.val).toNat = r.val := by
    rw [BitVec.toNat_ofNat]; exact Nat.mod_eq_of_lt (by have := r.isLt; omega)
  have hj : (BitVec.ofNat 32 j.val).toNat = j.val := by
    rw [BitVec.toNat_ofNat]; exact Nat.mod_eq_of_lt (by have := j.isLt; omega)
  unfold IntOp.addi
  rw [BitVec.add_zero]
  split_ifs with h
  · subst h; exact IntOp.cmpi_eq.2 rfl
  · refine eq_zero_of_ne_one fun e => h ?_
    have := IntOp.cmpi_eq.1 e
    exact Fin.ext (by rw [← hr, ← hj, this])

/-- The identity matrix's entry: one on the diagonal, zero off it. -/
theorem v5_at (r j : Fin 10000) :
    val_main_v5 (F := Ideal) (ix2 r j) = if r = j then (1 : EReal) else 0 := by
  rw [val_main_v5_apply, val_main_v4_apply, val_main_v3_apply, val_main_v0_apply, val_main_v1_apply,
    val_main_v2_apply, val_main_c_apply]
  show (((IntOp.cmpi .eq (IntOp.addi (BitVec.ofNat 32 r.val) 0#32) (BitVec.ofNat 32 j.val)).toNat : ℝ) : EReal) = _
  rw [delta_word]
  split_ifs <;> simp

/-- The adjacency matrix plus the identity, at an entry. -/
theorem v6_at (x1 : (⟨S10000x10000, .f32⟩ : BufTy).Contents (Elt Ideal)) (r j : Fin 10000) :
    val_main_v6 (F := Ideal) x1 (ix2 r j) = x1 (ix2 r j) + (if r = j then (1 : EReal) else 0) := by
  rw [val_main_v6_apply, v5_at]; rfl

/-- The row sums of the adjacency matrix plus the identity. -/
theorem v7_at (x1 : (⟨S10000x10000, .f32⟩ : BufTy).Contents (Elt Ideal)) (r : Fin 10000) :
    val_main_v7 (F := Ideal) x1 (ix1 r)
      = 0 + ∑ k : Fin 10000, (x1 (ix2 r k) + (if r = k then (1 : EReal) else 0)) := by
  rw [val_main_v7_apply, val_main_cst_apply, Ideal.ofBits_def, Ideal.ofBits_zero_f32]
  refine congrArg (0 + ·) (Finset.sum_congr rfl fun k _ => ?_)
  have e : idx_main_v7 (ix1 r) k = ix2 r k := by
    funext a; match a with | ⟨0, _⟩ => rfl | ⟨1, _⟩ => rfl
  rw [e, v6_at]

/-- The clamped degree to the power minus one half, at a row. -/
theorem v11_at (x1 : (⟨S10000x10000, .f32⟩ : BufTy).Contents (Elt Ideal)) (r : Fin 10000) :
    val_main_v11 (F := Ideal) x1 (ix1 r)
      = Ideal.pow (max (0 + ∑ k : Fin 10000, (x1 (ix2 r k) + (if r = k then (1 : EReal) else 0)))
          (Ideal.ofBits .f32 0x322BCC77#32)) (Ideal.ofBits .f32 0xBF000000#32) := by
  rw [val_main_v11_apply, val_main_v10_apply, val_main_cst_1_apply, val_main_v9_apply, val_main_v8_apply,
    val_main_cst_0_apply, v7_at]
  rfl

/-- The power broadcast along the rows reads the row's. -/
theorem v13_at (x1 : (⟨S10000x10000, .f32⟩ : BufTy).Contents (Elt Ideal)) (r j : Fin 10000) :
    val_main_v13 (F := Ideal) x1 (ix2 r j) = val_main_v11 (F := Ideal) x1 (ix1 r) := by
  rw [val_main_v13_apply, val_main_v12_apply]
  refine congrArg _ ?_
  funext a; match a with | ⟨0, _⟩ => rfl

/-- The power broadcast along the columns reads the column's. -/
theorem v16_at (x1 : (⟨S10000x10000, .f32⟩ : BufTy).Contents (Elt Ideal)) (r j : Fin 10000) :
    val_main_v16 (F := Ideal) x1 (ix2 r j) = val_main_v11 (F := Ideal) x1 (ix1 j) := by
  rw [val_main_v16_apply, val_main_v15_apply]
  refine congrArg _ ?_
  funext a; match a with | ⟨0, _⟩ => rfl

/-- The normalized matrix, at an entry. -/
theorem v17_at (x1 : (⟨S10000x10000, .f32⟩ : BufTy).Contents (Elt Ideal)) (r j : Fin 10000) :
    val_main_v17 (F := Ideal) x1 (ix2 r j)
      = ((x1 (ix2 r j) + (if r = j then (1 : EReal) else 0)) * val_main_v11 (F := Ideal) x1 (ix1 r))
          * val_main_v11 (F := Ideal) x1 (ix1 j) := by
  rw [val_main_v17_apply, val_main_v14_apply, v6_at, v13_at, v16_at]; rfl

/-- The linear layer, at an entry. -/
theorem v19_at (x0 : (⟨S10000x128, .f32⟩ : BufTy).Contents (Elt Ideal))
    (x2 : (⟨S128x128, .f32⟩ : BufTy).Contents (Elt Ideal)) (j : Fin 10000) (q : Fin 128) :
    val_main_v19 (F := Ideal) x0 x2 (ix2 j q) = ∑ k : Fin 128, x0 (ix2 j k) * x2 (ix2 q k) := by
  rw [val_main_v19_apply]
  refine Finset.sum_congr rfl fun k _ => ?_
  rw [val_main_v18_apply]
  have e1 : lidx_main_v19 (ix2 j q) k = ix2 j k := by
    funext a; match a with | ⟨0, _⟩ => rfl | ⟨1, _⟩ => rfl
  have e2 : idx_main_v18 (ridx_main_v19 (ix2 j q) k) = ix2 q k := by
    funext a; match a with | ⟨0, _⟩ => rfl | ⟨1, _⟩ => rfl
  rw [e1, e2]

/-- The product of the normalized matrix with the linear layer, at an entry. -/
theorem v20_at (x0 : (⟨S10000x128, .f32⟩ : BufTy).Contents (Elt Ideal))
    (x1 : (⟨S10000x10000, .f32⟩ : BufTy).Contents (Elt Ideal))
    (x2 : (⟨S128x128, .f32⟩ : BufTy).Contents (Elt Ideal)) (r : Fin 10000) (q : Fin 128) :
    val_main_v20 (F := Ideal) x0 x1 x2 (ix2 r q)
      = ∑ j : Fin 10000, val_main_v17 (F := Ideal) x1 (ix2 r j) * val_main_v19 (F := Ideal) x0 x2 (ix2 j q) := by
  rw [val_main_v20_apply]
  refine Finset.sum_congr rfl fun j _ => ?_
  have e1 : lidx_main_v20 (ix2 r q) j = ix2 r j := by
    funext a; match a with | ⟨0, _⟩ => rfl | ⟨1, _⟩ => rfl
  have e2 : ridx_main_v20 (ix2 r q) j = ix2 j q := by
    funext a; match a with | ⟨0, _⟩ => rfl | ⟨1, _⟩ => rfl
  rw [e1, e2]

/-- The result: the product clamped below at zero. -/
theorem v21_at (x0 : (⟨S10000x128, .f32⟩ : BufTy).Contents (Elt Ideal))
    (x1 : (⟨S10000x10000, .f32⟩ : BufTy).Contents (Elt Ideal))
    (x2 : (⟨S128x128, .f32⟩ : BufTy).Contents (Elt Ideal)) (r : Fin 10000) (q : Fin 128) :
    val_main_v21 (F := Ideal) x0 x1 x2 (ix2 r q) = max (val_main_v20 (F := Ideal) x0 x1 x2 (ix2 r q)) 0 := by
  rw [val_main_v21_apply, val_main_call0_v0_apply, val_main_call0_cst_apply, Ideal.ofBits_def,
    Ideal.ofBits_zero_f32]
  rfl

/-- A row's degree with the self loop is real when the adjacency matrix's entries are. -/
theorem deg_real (x1 : (⟨S10000x10000, .f32⟩ : BufTy).Contents (Elt Ideal)) (h1 : ∀ i, ∃ x : ℝ, x1 i = (x : EReal))
    (r : Fin 10000) : ∃ d : ℝ, (∑ k : Fin 10000, x1 (ix2 r k)) + 1 = (d : EReal) := by
  obtain ⟨s, hs⟩ := Cert.RefLaw.sum_real Finset.univ (fun k : Fin 10000 => x1 (ix2 r k)) fun k => h1 (ix2 r k)
  exact ⟨s + 1, by rw [hs]; norm_cast⟩

/-- On real entries the reference's power is the specification's inverse square root. -/
theorem v11_eq_dinv (x1 : (⟨S10000x10000, .f32⟩ : BufTy).Contents (Elt Ideal))
    (h1 : ∀ i, ∃ x : ℝ, x1 i = (x : EReal)) (r : Fin 10000) :
    val_main_v11 (F := Ideal) x1 (ix1 r) = Cert.Spec.dinv x1 r := by
  rw [v11_at, Cert.RefLaw.deg_law (fun k : Fin 10000 => x1 (ix2 r k)) r]
  unfold Cert.Spec.dinv Cert.Spec.deg Cert.Spec.one Cert.Spec.eps
  rw [Ideal.ofBits_one_f32]
  obtain ⟨d, hd⟩ := deg_real x1 h1 r
  obtain ⟨e, he, hee⟩ := Cert.Lit.eps_pos
  rw [hd, hee, Cert.Lit.neg_half_eq]
  exact Cert.RefLaw.dinv_law d e he

/-- The specification's inverse square roots are real when the adjacency matrix's entries are. -/
theorem dinv_real (x1 : (⟨S10000x10000, .f32⟩ : BufTy).Contents (Elt Ideal))
    (h1 : ∀ i, ∃ x : ℝ, x1 i = (x : EReal)) (r : Fin 10000) : ∃ p : ℝ, Cert.Spec.dinv x1 r = (p : EReal) := by
  unfold Cert.Spec.dinv Cert.Spec.deg Cert.Spec.one Cert.Spec.eps
  rw [Ideal.ofBits_one_f32]
  obtain ⟨d, hd⟩ := deg_real x1 h1 r
  obtain ⟨e, he, hee⟩ := Cert.Lit.eps_pos
  rw [hd, hee]
  exact Cert.RefLaw.rsqrt_real d e he

/-- The reference's result is the specification's, on real arguments. -/
theorem ref_eq_spec
    (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x128, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    Cert.ReferenceIdeal.Read.val_main_v21 (F := Ideal) x0 x1 x2 = Cert.Spec.outArr x1 x0 x2 := by
  funext i
  obtain ⟨r, q, rfl⟩ : ∃ r q, i = ix2 r q := ⟨i 0, i 1, eq_ix2 i⟩
  rw [v21_at, v20_at]
  show _ = Cert.Spec.out x1 x0 x2 r q
  unfold Cert.Spec.out Cert.Spec.g
  refine congrArg (max · 0) ?_
  rw [Finset.sum_congr rfl fun j _ => by
    rw [v17_at, v19_at, v11_eq_dinv x1 h1 r, v11_eq_dinv x1 h1 j]]
  exact Cert.RefLaw.sum_law (fun j : Fin 10000 => x1 (ix2 r j)) (fun j => Cert.Spec.dinv x1 j)
    (fun j => Cert.Spec.lin x0 x2 j q) (fun j => h1 (ix2 r j)) (dinv_real x1 h1)
    (fun j => Cert.RefLaw.sum_mul_real Finset.univ _ _ (fun k => h0 (ix2 j k)) (fun k => h2 (ix2 q k))) r

end Cert.ReferenceIdeal.RefValue

end
-- ==== Proof.Finite.lean ====
/-
  From the finiteness precondition to real entries.

  The precondition is the conjunction, over the three argument arrays, of "every entry's absolute value is below
  plus infinity". At the extended reals an entry whose absolute value is below plus infinity is neither infinity,
  that is, a real.
-/
import proofs.«129218_g66864050864945_cont_9to1_m_323_3_alg».proof.Pre_finite_inputs
import proofs.«129218_g66864050864945_cont_9to1_m_323_3_alg».proof.Proof.Lit
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- An extended real whose absolute value is below plus infinity is a real. -/
theorem real_of_abs_lt_top (x : EReal)
    (h : Ideal.cmp .olt (max x (-x)) (Ideal.ofBits .f32 0x7F800000#32) = 1#1) : ∃ r : ℝ, x = (r : EReal) := by
  rw [Cert.Lit.inf_eq] at h
  induction x using EReal.rec with
  | bot => simp [Ideal.cmp] at h
  | coe r => exact ⟨r, rfl⟩
  | top => simp [Ideal.cmp] at h

/-- An array all of whose entries pass the comparison "absolute value below plus infinity" has real entries. -/
theorem real_of_all {s : Shape} (x : FVec Ideal s .f32) (b : S_.BroadcastsInDim s (![] : Fin 0 → Fin s.rank))
    (h : ∀ i, cmpf .olt (Host.absf x) (broadcastInDim s ![] b (constant S_ .f32 0x7F800000#32)) i = 1#1) :
    ∀ i, ∃ r : ℝ, x i = (r : EReal) :=
  fun i => real_of_abs_lt_top (x i) (h i)

/-- The finiteness precondition gives real entries in all three arrays. -/
theorem of_pre [Cert.Pre_finite_inputs.Facts] (x : FVec Ideal S10000x128 .f32) (adj : FVec Ideal S10000x10000 .f32)
    (W : FVec Ideal S128x128 .f32)
    (h : Cert.Pre_finite_inputs.fn (F := Ideal) x adj W = (fun _ => 1#1)) :
    (∀ i, ∃ r : ℝ, x i = (r : EReal)) ∧ (∀ i, ∃ r : ℝ, adj i = (r : EReal)) ∧ (∀ i, ∃ r : ℝ, W i = (r : EReal)) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  exact ⟨real_of_all x _ (Host.reduce_andi_all _ _ _ _ _ h0),
    real_of_all adj _ (Host.reduce_andi_all _ _ _ _ _ h1),
    real_of_all W _ (Host.reduce_andi_all _ _ _ _ _ h2)⟩

end Cert.Finite

end
-- ==== Proof.Assemble.lean ====
/-
  The certificate's claims as functions of hypotheses about the kernel's runs.

  The reference's run is the generated one: its frame conjunct is that run with the result dropped, and its result
  term, read as the specification's array on real arguments, closes the algebraic claim once the kernel's run is
  known to end at the same array. The kernel's runs enter as hypotheses.
-/
import proofs.«129218_g66864050864945_cont_9to1_m_323_3_alg».proof.Defs
import proofs.«129218_g66864050864945_cont_9to1_m_323_3_alg».proof.Proof.Gen.Kernel
import proofs.«129218_g66864050864945_cont_9to1_m_323_3_alg».proof.Proof.Gen.KernelIdeal
import proofs.«129218_g66864050864945_cont_9to1_m_323_3_alg».proof.Proof.Gen.ReferenceIdeal
import proofs.«129218_g66864050864945_cont_9to1_m_323_3_alg».proof.Proof.Gen.Pre_finite_inputs
import proofs.«129218_g66864050864945_cont_9to1_m_323_3_alg».proof.Proof.Gen.ReferenceIdeal.Run
import proofs.«129218_g66864050864945_cont_9to1_m_323_3_alg».proof.Proof.Gen.ReferenceIdeal.Read
import proofs.«129218_g66864050864945_cont_9to1_m_323_3_alg».proof.Proof.Spec
import proofs.«129218_g66864050864945_cont_9to1_m_323_3_alg».proof.Proof.RefValue
import proofs.«129218_g66864050864945_cont_9to1_m_323_3_alg».proof.Proof.Finite

noncomputable section

namespace Cert.Proof.Assemble

open Idealize.ShloMosaic Idealize.SL.Sem

/-- The reference runs and leaves its arguments unchanged: the generated run with the result dropped. -/
theorem frame_ri :
    Cert.frame_ReferenceIdeal (hReferenceIdeal := Cert.ReferenceIdeal.Gen.facts)
      (hPre_finite_inputs := Cert.Pre_finite_inputs.Gen.facts) := fun m ρ _ =>
  (θ_run Cert.ReferenceIdeal.defs _ _).mono (fun _ h c => (h c).2) (Cert.ReferenceIdeal.Value.run (F := Ideal) m ρ)

/-- If every run of the idealized kernel ends with its result at the specification's array of the arguments, and the
    arguments unchanged, then kernel and reference agree at the extended reals: the reference's result term is the
    specification's array too, on the real arguments the precondition gives. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.Spec.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    hk m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _ _).trans ?_
  rw [(hagree c).1, (hagree c).2.1, (hagree c).2.2]
  obtain ⟨f0, f1, f2⟩ := Cert.Finite.of_pre _ _ _ (hpre c)
  exact Cert.ReferenceIdeal.RefValue.ref_eq_spec _ _ _ f0 f1 f2

/-- From a run of the idealized kernel whose post has the three arguments unchanged beside anything else, the
    frame conjunct. -/
theorem frame_pi_of
    (X : ((ℓ : Loc Cert.KernelIdeal.nD Cert.KernelIdeal.τ Cert.KernelIdeal.sig) → Buf (Elt Ideal) ℓ) → Dev Cert.KernelIdeal.nD → PUnit × MemSt Cert.KernelIdeal.nD Cert.KernelIdeal.τ Cert.KernelIdeal.sig (Elt Ideal) → Prop)
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          X m c r
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.frame_KernelIdeal (hKernelIdeal := Cert.KernelIdeal.Gen.facts)
      (hPre_finite_inputs := Cert.Pre_finite_inputs.Gen.facts) := fun m ρ _ =>
  (θ_run Cert.KernelIdeal.defs _ _).mono (fun _ h c => (h c).2) (hk m ρ)

/-- The same for the kernel as printed, at the bit-exact instance. -/
theorem frame_p_of
    (X : ((ℓ : Loc Cert.Kernel.nD Cert.Kernel.τ Cert.Kernel.sig) → Buf (Elt Bits) ℓ) → Dev Cert.Kernel.nD → PUnit × MemSt Cert.Kernel.nD Cert.Kernel.τ Cert.Kernel.sig (Elt Bits) → Prop)
    (hk : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD,
          X m c r
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))) :
    Cert.frame_Kernel (hKernel := Cert.Kernel.Gen.facts)
      (hPre_finite_inputs := Cert.Pre_finite_inputs.Gen.facts) := fun m ρ _ =>
  (θ_run Cert.Kernel.defs _ _).mono (fun _ h c => (h c).2) (hk m ρ)

/-- The certificate's claim from its four conjuncts that need a proof, at the generated side conditions. -/
theorem claim_of
    (hp : Cert.frame_Kernel (hKernel := Cert.Kernel.Gen.facts) (hPre_finite_inputs := Cert.Pre_finite_inputs.Gen.facts))
    (hpi : Cert.frame_KernelIdeal (hKernelIdeal := Cert.KernelIdeal.Gen.facts)
      (hPre_finite_inputs := Cert.Pre_finite_inputs.Gen.facts))
    (hri : Cert.frame_ReferenceIdeal (hReferenceIdeal := Cert.ReferenceIdeal.Gen.facts)
      (hPre_finite_inputs := Cert.Pre_finite_inputs.Gen.facts))
    (halg : Cert.algebraic_KernelIdeal_ReferenceIdeal (hKernelIdeal := Cert.KernelIdeal.Gen.facts)
      (hReferenceIdeal := Cert.ReferenceIdeal.Gen.facts) (hPre_finite_inputs := Cert.Pre_finite_inputs.Gen.facts)) :
    Cert.Claim :=
  ⟨Cert.Kernel.Gen.facts, Cert.KernelIdeal.Gen.facts, Cert.ReferenceIdeal.Gen.facts, Cert.Pre_finite_inputs.Gen.facts,
    hp, hpi, hri, trivial, halg⟩

end Cert.Proof.Assemble

end
-- ==== Proof.Region0.lean ====
/-
  The first pass of the layer (degrees and scaled linear layer) as one pipelined region, at any float instance.

  The grid has 25 points; point t works on rows 400·t … 400·t+399. Its five windows: the adjacency's row slab
  [400, 10000] (window 0), the features' row block [400, 128] (window 1), the whole weight matrix [128, 128]
  (window 2, fetched once), and two results — the column of inverse square roots [400, 1] (window 3) and the
  scaled linear layer's row block [400, 128] (window 4). The body reads the three inputs whole and stores each
  result block whole, once; so after the body a result's buffer holds the store's payload of the three input
  blocks, and each input's buffer still holds its block.
  Stated at a PARAMETER V, the buffer contents when the region is entered.
-/
import proofs.«129218_g66864050864945_cont_9to1_m_323_3_alg».proof.Proof.Gen.KernelIdeal.Launch
import proofs.«129218_g66864050864945_cont_9to1_m_323_3_alg».proof.Proof.Gen.KernelIdeal.Skeleton
import proofs.«129218_g66864050864945_cont_9to1_m_323_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block index
    has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rAdj0 : Rect S400x10000 := Rect.unit (s := S400x10000) ![0, 0] S400x10000.size inb_S400x10000_S400x10000_0_0
abbrev rX0 : Rect S400x128 := Rect.unit (s := S400x128) ![0, 0] S400x128.size inb_S400x128_S400x128_0_0
abbrev rW0 : Rect S128x128 := Rect.unit (s := S128x128) ![0, 0] S128x128.size inb_S128x128_S128x128_0_0
abbrev rD0 : Rect S400x1 := Rect.unit (s := S400x1) ![0, 0] S400x1.size inb_S400x1_S400x1_0_0

/-! ## What the body leaves in each result's buffer -/

/-- The column of inverse square roots after the body: its one whole-block store, of the slab's payload. -/
def out0_3 (x0 : Vec F S400x10000 .f32) : Vec F S400x1 .f32 :=
  View.canon [⟨rD0, k0_pay1 (View.ld x0 rAdj0)⟩]
/-- The scaled linear layer's block after the body: its one whole-block store, of the three inputs' payload. -/
def out0_4 (x0 : Vec F S400x10000 .f32) (x1 : Vec F S400x128 .f32) (x2 : Vec F S128x128 .f32) : Vec F S400x128 .f32 :=
  View.canon [⟨rX0, k0_pay2 (View.ld x0 rAdj0) (View.ld x1 rX0) (View.ld x2 rW0)⟩]

/-- A whole-block store covers the block. -/
theorem cover0_3 (p0 : Vec F S400x1 .f32) (y : S400x1.Idx) :
    ∃ pc ∈ ([⟨rD0, p0⟩] : List (View.Piece (Elt F) S400x1 .f32)), y ∈ pc.1.set :=
  View.cover_of_tiled [⟨rD0, p0⟩] S400x1.size (by rfl) y
theorem cover0_4 (p0 : Vec F S400x128 .f32) (y : S400x128.Idx) :
    ∃ pc ∈ ([⟨rX0, p0⟩] : List (View.Piece (Elt F) S400x128 .f32)), y ∈ pc.1.set :=
  View.cover_of_tiled [⟨rX0, p0⟩] S400x128.size (by rfl) y

/-! ## The body's triple -/

set_option maxHeartbeats 1000000 in
/-- The body on whole staging buffers — the inputs' at read contents x0, x1, x2, the results' at anything — runs to
    the continuation holding the inputs' as they were and each result's at its store's payload. -/
theorem sound_kernel0 (c : Dev nD) (E : Set ℕ) (i : grid0.Coords)
    (arg1 : Memref sig .tc .vmem S400x10000 .f32) (harg1 : arg1.IsWhole) (arg2 : Memref sig .tc .vmem S400x128 .f32) (harg2 : arg2.IsWhole)
    (arg3 : Memref sig .tc .vmem S128x128 .f32) (harg3 : arg3.IsWhole) (arg4 : Memref sig .tc .vmem S400x1 .f32) (harg4 : arg4.IsWhole)
    (arg5 : Memref sig .tc .vmem S400x128 .f32) (harg5 : arg5.IsWhole)
    (x0 : Vec F S400x10000 .f32) (x1 : Vec F S400x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__prep_body i arg1 harg1 arg2 harg2 arg3 harg3 arg4 harg4 arg5 harg5) K := by
  simp only [cc0__prep_body_eq_skeleton]; unfold cc0__prep_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The region's proof data on core c: the arrays as the region finds them; after the body at point t each input's buffer at
    its block and each result's at its payload of the input blocks; the scoped rest and the generator register ride along
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second pass of the layer (aggregation over the neighbours, self loop, row scaling, cut at zero) as one pipelined
  region, at any float instance.

  The grid has 25 points; point t works on rows 400·t … 400·t+399. Its five windows: the adjacency's row slab
  [400, 10000] (window 0); the scaled linear layer WHOLE, [10000, 128] (window 1, fetched once) and, of the SAME array,
  the row block [400, 128] (window 2); the column of inverse square roots' block [400, 1] (window 3); and the result's
  row block [400, 128] (window 4). The body reads the four inputs whole and stores the result block whole, once.
  Two input windows read one array: each holds it at half the full share.
  Stated at a PARAMETER V, the buffer contents when the region is entered.
-/
import proofs.«129218_g66864050864945_cont_9to1_m_323_3_alg».proof.Proof.Gen.KernelIdeal.Launch
import proofs.«129218_g66864050864945_cont_9to1_m_323_3_alg».proof.Proof.Gen.KernelIdeal.Skeleton
import proofs.«129218_g66864050864945_cont_9to1_m_323_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block index
    has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev rAdj1 : Rect S400x10000 := Rect.unit (s := S400x10000) ![0, 0] S400x10000.size inb_S400x10000_S400x10000_0_0
abbrev rG1 : Rect S10000x128 := Rect.unit (s := S10000x128) ![0, 0] S10000x128.size inb_S10000x128_S10000x128_0_0
abbrev rX1 : Rect S400x128 := Rect.unit (s := S400x128) ![0, 0] S400x128.size inb_S400x128_S400x128_0_0
abbrev rD1 : Rect S400x1 := Rect.unit (s := S400x1) ![0, 0] S400x1.size inb_S400x1_S400x1_0_0

/-! ## What the body leaves in the result's buffer -/

/-- The result block after the body: its one whole-block store, of the four inputs' payload (the slab, the whole scaled
    layer, the column's block, the scaled layer's own block). -/
def out1_4 (x0 : Vec F S400x10000 .f32) (x1 : Vec F S10000x128 .f32) (x2 : Vec F S400x128 .f32) (x3 : Vec F S400x1 .f32) : Vec F S400x128 .f32 :=
  View.canon [⟨rX1, k1_pay1 (View.ld x0 rAdj1) (View.ld x1 rG1) (View.ld x3 rD1) (View.ld x2 rX1)⟩]

/-- A whole-block store covers the block. -/
theorem cover1_4 (p0 : Vec F S400x128 .f32) (y : S400x128.Idx) :
    ∃ pc ∈ ([⟨rX1, p0⟩] : List (View.Piece (Elt F) S400x128 .f32)), y ∈ pc.1.set :=
  View.cover_of_tiled [⟨rX1, p0⟩] S400x128.size (by rfl) y

/-! ## The body's triple -/

set_option maxHeartbeats 1000000 in
/-- The body on whole staging buffers — the inputs' at read contents x0 … x3, the result's at anything — runs to the
    continuation holding the inputs' as they were and the result's at its store's payload. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (x3 : Vec F S400x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__mm_body i arg1 harg1 arg2 harg2 arg3 harg3 arg4 harg4 arg5 harg5) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The region's proof data on core c: the arrays as the region finds them; after the body at point t each input's buffer at
    its block and the result's at its payload of the input blocks; the scoped rest and the generator register ride along
    untouched; nothing owed; the two windows on one array at its two half shares, every other at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program's run, at any float instance: @main is the first pass's region followed by the second pass's region,
  with no host operation between them.

  The buffer contents at the three boundaries: at launch the memory; after the first region its two result arrays hold what
  the write-backs leave and every other buffer is unchanged; after the second region the result array holds what its
  write-backs leave and every other buffer is unchanged (its four inputs are only read). The second region reads one array —
  the scaled linear layer — through two windows, whole and by row blocks: at entry that buffer's full share is split into
  two halves, one per window, and at exit the halves, still holding the same contents, are joined back.
  The run's post names the result array as the second region's write-backs fold, and has the three arguments as launched.
-/
import proofs.«129218_g66864050864945_cont_9to1_m_323_3_alg».proof.Proof.Region0
import proofs.«129218_g66864050864945_cont_9to1_m_323_3_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references: what the first region is entered from. -/
abbrev Ve0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: the first region's exit, the second's entry. -/
abbrev Ve1 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Ve1 m ρ c (Pipeline.arrRef spec0 w) :=
  (W1_arr m ρ c w).symm
theorem hrest0 (c : Dev nD) : ∀ b, b ∉ Finset.univ.image (Pipeline.arrRef spec0) → Ve1 m ρ c b = Ve0 m ρ c b :=
  fun b hb => W1_of_ne m ρ c b fun w e => hb (Finset.mem_image.mpr ⟨w, Finset.mem_univ _, e⟩)

/-- At the second region's exit: the result array at what the pipeline leaves, every other buffer as entered. -/
def Ve2 : (c : Dev nD) → (b : Ref sig .tc) → Buf (Elt F) ((c : Thread nD τ).loc b) := fun c =>
  Function.update (Ve1 m ρ c) main_v1 ((dat1 (Ve1 m ρ) c).arrAt 4 cfg1.N)
theorem Ve2_res (c : Dev nD) : Ve2 m ρ c main_v1 = (dat1 (Ve1 m ρ) c).arrAt 4 cfg1.N := by
  unfold Ve2; exact Function.update_self ..
theorem Ve2_of_ne (c : Dev nD) (b : Ref sig .tc) (hb : b ≠ main_v1) : Ve2 m ρ c b = Ve1 m ρ c b := by
  unfold Ve2; exact Function.update_of_ne hb ..

/-! ## The arguments end as launched -/

theorem Ve1_main_arg0 (c : Dev nD) : Ve1 m ρ c main_arg0 = m ((c : Thread nD τ).loc main_arg0) :=
  ((W1_arr m ρ c 1).trans (((dat0 (Ve0 m ρ) c).arrAt_in 1 rfl _).trans (A_eq0 (Ve0 m ρ) c 1))).trans rfl
theorem Ve1_main_arg1 (c : Dev nD) : Ve1 m ρ c main_arg1 = m ((c : Thread nD τ).loc main_arg1) :=
  ((W1_arr m ρ c 0).trans (((dat0 (Ve0 m ρ) c).arrAt_in 0 rfl _).trans (A_eq0 (Ve0 m ρ) c 0))).trans rfl
theorem Ve1_main_arg2 (c : Dev nD) : Ve1 m ρ c main_arg2 = m ((c : Thread nD τ).loc main_arg2) :=
  ((W1_arr m ρ c 2).trans (((dat0 (Ve0 m ρ) c).arrAt_in 2 rfl _).trans (A_eq0 (Ve0 m ρ) c 2))).trans rfl
/-- The first region's two results, as the second region finds them. -/
theorem Ve1_main_v0_0 (c : Dev nD) : Ve1 m ρ c main_v0_0 = (dat0 (Ve0 m ρ) c).arrAt 3 cfg0.N := W1_arr m ρ c 3
theorem Ve1_main_v0_1 (c : Dev nD) : Ve1 m ρ c main_v0_1 = (dat0 (Ve0 m ρ) c).arrAt 4 cfg0.N := W1_arr m ρ c 4

/-! ## The unscoped buffers, one by one -/

/-- The six unscoped buffers: the three arguments, the first region's two results, the second region's result. -/
theorem ucList : (Finset.univ.filter fun b : Ref sig .tc => ¬ b.isScoped)
    = ([main_arg0, main_arg1, main_arg2, main_v0_0, main_v0_1, main_v1] : List (Ref sig .tc)).toFinset := by decide

theorem unscopedBufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)) := by
  unfold unscopedBufs
  exact bigSep_eq_bigSepL_of_eq _ ucList (by decide) _

/-- The second region's arrays, window by window: the adjacency, the scaled layer at its two half shares, the column, the result. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_arg1) ↦{fullShare} Fa 0) ∗ (((c : Thread nD τ).loc main_v0_1) ↦{fullShare.left} Fa 1)
          ∗ (((c : Thread nD τ).loc main_v0_1) ↦{fullShare.right} Fa 2) ∗ (((c : Thread nD τ).loc main_v0_0) ↦{fullShare} Fa 3)
          ∗ (((c : Thread nD τ).loc main_v1) ↦{fullShare} Fa 4)) := by
  unfold Pipeline.Dat.arrays
  rw [bigSep_W1]
  rw [(arr_whole1 0).set_eq_univ, (arr_whole1 1).set_eq_univ, (arr_whole1 3).set_eq_univ, (arr_whole1 4).set_eq_univ]
  rfl

/-- ENTRY of the second region: the six buffers at V make its arrays at V (the shared one split in two halves) and the two
    buffers it does not touch. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_eq, arrays1_eq, unscopedRest1_eq]
  have hsh : ((((c : Thread nD τ).loc main_v0_1) ↦{fullShare} V c main_v0_1) : sProp 𝕄)
      ⊢ iprop((((c : Thread nD τ).loc main_v0_1) ↦{fullShare.left} V c main_v0_1) ∗ (((c : Thread nD τ).loc main_v0_1) ↦{fullShare.right} V c main_v0_1)) :=
    (pointsTo_share (PosShare.mem_left_op_right fullShare)).1
  iintro ⟨Ha0, Ha1, Ha2, Hd, Hg, Ho⟩
  ihave Hg2 := hsh $$ Hg
  icases Hg2 with ⟨Hgl, Hgr⟩
  isplitl [Ha1 Hgl Hgr Hd Ho]
  · isplitl [Ha1]; · iexact Ha1
    isplitl [Hgl]; · iexact Hgl
    isplitl [Hgr]; · iexact Hgr
    isplitl [Hd]; · iexact Hd
    iexact Ho
  isplitl [Ha0]; · iexact Ha0
  iexact Ha2

/-- EXIT of the second region: its arrays as the pipeline leaves them — the inputs as entered, so the two halves of the
    shared buffer still agree and join — and the two untouched buffers make the six buffers at the exit contents. -/
theorem exit1 (V V' : (c : Dev nD) → (b : Ref sig .tc) → Buf (Elt F) ((c : Thread nD τ).loc b)) (c : Dev nD)
    (hres : V' c main_v1 = (dat1 V c).arrAt 4 cfg1.N) (hne : ∀ b, b ≠ main_v1 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [unscopedBufs_eq, arrays1_eq, unscopedRest1_eq, hres,
    hne main_arg0 (by decide), hne main_arg1 (by decide), hne main_arg2 (by decide), hne main_v0_0 (by decide), hne main_v0_1 (by decide),
    (dat1 V c).arrAt_in 0 rfl, (dat1 V c).arrAt_in 1 rfl, (dat1 V c).arrAt_in 2 rfl, (dat1 V c).arrAt_in 3 rfl]
  have hsh : iprop((((c : Thread nD τ).loc main_v0_1) ↦{fullShare.left} V c main_v0_1) ∗ (((c : Thread nD τ).loc main_v0_1) ↦{fullShare.right} V c main_v0_1))
      ⊢ ((((c : Thread nD τ).loc main_v0_1) ↦{fullShare} V c main_v0_1) : sProp 𝕄) :=
    (pointsTo_share (PosShare.mem_left_op_right fullShare)).2
  iintro ⟨⟨Ha1, Hgl, Hgr, Hd, Ho⟩, Ha0, Ha2⟩
  ihave Hg := hsh $$ [Hgl Hgr]
  · isplitl [Hgl]; · iexact Hgl
    iexact Hgr
  isplitl [Ha0]; · iexact Ha0
  isplitl [Ha1]; · iexact Ha1
  isplitl [Ha2]; · iexact Ha2
  isplitl [Hd]; · iexact Hd
  isplitl [Hg]; · iexact Hg
  iexact Ho

end Cert.KernelIdeal.Hand

end
-- ==== Proof.RunMain.lean ====
/-
  The launch of the two-region program over its thread states, at any float instance: each pass's region as a segment
  entered from every unscoped buffer at one boundary's contents and left at the next one's, and the run's post read off the
  last boundary — the result array at the second region's write-backs fold, the three arguments as launched.
-/
import proofs.«129218_g66864050864945_cont_9to1_m_323_3_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary's contents as a valuation of every device reference: the first boundary's, but for the result array. -/
def W2 (c : Dev nD) : Valuation τ sig (Elt F) :=
  Function.update (W1 m ρ c) main_v1 (Ve2 m ρ c main_v1)
theorem W2_eq (c : Dev nD) : (fun b : Ref sig .tc => W2 m ρ c b) = Ve2 m ρ c := by
  funext b
  by_cases hb : b = main_v1
  · subst hb; unfold W2; exact Function.update_self ..
  · unfold W2
    exact (Function.update_of_ne (StableHlo.devRef_ne_of_ne hb : (Proc.devRef .tc b : DevRef τ sig) ≠ Proc.devRef .tc main_v1) ..).trans
      (Ve2_of_ne m ρ c b hb).symm
/-- The last thread state without the dues: every unscoped buffer at the last boundary's contents, the generator register at some state. -/
abbrev Tₙ (c : Dev nD) : sProp 𝕄 :=
  iprop(unscopedBufs (Ix := Unit) (Name := ℕ) (U := UR sig nD τ) (Lvl := ℕ) c (Ve2 m ρ c) ∗ ∃ r, prngReg c r)

/-! ## The regions as segments -/

set_option backward.isDefEq.respectTransparency.types false in
/-- The first region over the thread state: entered from every unscoped buffer at the launch contents, left at the first
    boundary's. Its arrays are split out of the unscoped buffers and put back at the exit contents; the generator register goes
    into the invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(unscopedBufs (Ix := Unit) (Name := ℕ) (U := UR sig nD τ) (Lvl := ℕ) c (Ve0 m ρ c) ∗ R c)
  post c := iprop(unscopedBufs (Ix := Unit) (Name := ℕ) (U := UR sig nD τ) (Lvl := ℕ) c (Ve1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first boundary's contents, left at the
    last boundary's. Two of its windows read one array: the entry splits that buffer's share in two and the exit joins the halves. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(unscopedBufs (Ix := Unit) (Name := ℕ) (U := UR sig nD τ) (Lvl := ℕ) c (Ve1 m ρ c) ∗ R c)
  post c := iprop(unscopedBufs (Ix := Unit) (Name := ℕ) (U := UR sig nD τ) (Lvl := ℕ) c (Ve2 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit : (unscopedBufs (Ix := Unit) (Name := ℕ) (U := UR sig nD τ) (Lvl := ℕ) c (Ve1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (Ve1 m ρ c)) :=
      entry1 (Ve1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (Ve1 m ρ c))
        ⊢ (unscopedBufs (Ix := Unit) (Name := ℕ) (U := UR sig nD τ) (Lvl := ℕ) c (Ve2 m ρ c) : sProp 𝕄) :=
      exit1 (Ve1 m ρ) (Ve2 m ρ) c (Ve2_res m ρ c) (fun b hb => Ve2_of_ne m ρ c b hb)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's two segments in order: a region per pass. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and every final
    state has the result array at the second region's write-backs fold and the three argument arrays as launched. -/
theorem run_main : θ_run defs (onTc (τ := τ) (main (F := F))) ⟨m, fun _ => 0, ρ⟩ (fun r => ∀ c : Dev nD,
      r.2.mem ((c.tc : Thread nD τ).loc main_v1) = (dat1 (Ve1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs (Ix := Unit) (Name := ℕ) (U := UR sig nD τ) (Lvl := ℕ) c (Ve0 m ρ c) ∗ R c)) (Tₙ := Tₙ m ρ)
    (hch := ⟨fun _ => .rfl, fun _ => .rfl, fun c => by
      show iprop(unscopedBufs (Ix := Unit) (Name := ℕ) (U := UR sig nD τ) (Lvl := ℕ) c (Ve2 m ρ c) ∗ R c) ⊢ iprop(Tₙ m ρ c ∗ ∃ W, owes (c : Thread nD τ) (0 : CellTallies nD τ sig Unit) W)
      iintro ⟨Hb, Hp, HO⟩
      isplitl [Hb Hp]
      · isplitl [Hb]; · iexact Hb
        iexact Hp
      iexact HO⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      rw [show (Tₙ m ρ c : sProp 𝕄) = iprop(StableHlo.held (c : Thread nD τ) (Pipeline.ucRefs τ sig) (W2 m ρ c) ∗ ∃ r, prngReg c r) from by
        unfold Tₙ; rw [← W2_eq m ρ c, Pipeline.unscopedBufs_held c (W2 m ρ c)]]
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans ((congrFun (W2_eq m ρ c) main_v1).trans (Ve2_res m ρ c)),
       (h c _ (mem_uc main_arg0 (by decide))).trans ((congrFun (W2_eq m ρ c) main_arg0).trans ((Ve2_of_ne m ρ c main_arg0 (by decide)).trans (Ve1_main_arg0 m ρ c))),
       (h c _ (mem_uc main_arg1 (by decide))).trans ((congrFun (W2_eq m ρ c) main_arg1).trans ((Ve2_of_ne m ρ c main_arg1 (by decide)).trans (Ve1_main_arg1 m ρ c))),
       (h c _ (mem_uc main_arg2 (by decide))).trans ((congrFun (W2_eq m ρ c) main_arg2).trans ((Ve2_of_ne m ρ c main_arg2 (by decide)).trans (Ve1_main_arg2 m ρ c)))⟩)

end Cert.KernelIdeal.Hand

end
-- ==== Proof.BitsRegion0.lean ====
/-
  The first pass of the layer (degrees and scaled linear layer) as one pipelined region, at any float instance.

  The grid has 25 points; point t works on rows 400·t … 400·t+399. Its five windows: the adjacency's row slab
  [400, 10000] (window 0), the features' row block [400, 128] (window 1), the whole weight matrix [128, 128]
  (window 2, fetched once), and two results — the column of inverse square roots [400, 1] (window 3) and the
  scaled linear layer's row block [400, 128] (window 4). The body reads the three inputs whole and stores each
  result block whole, once; so after the body a result's buffer holds the store's payload of the three input
  blocks, and each input's buffer still holds its block.
  Stated at a PARAMETER V, the buffer contents when the region is entered.
-/
import proofs.«129218_g66864050864945_cont_9to1_m_323_3_alg».proof.Proof.Gen.Kernel.Launch
import proofs.«129218_g66864050864945_cont_9to1_m_323_3_alg».proof.Proof.Gen.Kernel.Skeleton
import proofs.«129218_g66864050864945_cont_9to1_m_323_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block index
    has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rAdj0 : Rect S400x10000 := Rect.unit (s := S400x10000) ![0, 0] S400x10000.size inb_S400x10000_S400x10000_0_0
abbrev rX0 : Rect S400x128 := Rect.unit (s := S400x128) ![0, 0] S400x128.size inb_S400x128_S400x128_0_0
abbrev rW0 : Rect S128x128 := Rect.unit (s := S128x128) ![0, 0] S128x128.size inb_S128x128_S128x128_0_0
abbrev rD0 : Rect S400x1 := Rect.unit (s := S400x1) ![0, 0] S400x1.size inb_S400x1_S400x1_0_0

/-! ## What the body leaves in each result's buffer -/

/-- The column of inverse square roots after the body: its one whole-block store, of the slab's payload. -/
def out0_3 (x0 : Vec F S400x10000 .f32) : Vec F S400x1 .f32 :=
  View.canon [⟨rD0, k0_pay1 (View.ld x0 rAdj0)⟩]
/-- The scaled linear layer's block after the body: its one whole-block store, of the three inputs' payload. -/
def out0_4 (x0 : Vec F S400x10000 .f32) (x1 : Vec F S400x128 .f32) (x2 : Vec F S128x128 .f32) : Vec F S400x128 .f32 :=
  View.canon [⟨rX0, k0_pay2 (View.ld x0 rAdj0) (View.ld x1 rX0) (View.ld x2 rW0)⟩]

/-- A whole-block store covers the block. -/
theorem cover0_3 (p0 : Vec F S400x1 .f32) (y : S400x1.Idx) :
    ∃ pc ∈ ([⟨rD0, p0⟩] : List (View.Piece (Elt F) S400x1 .f32)), y ∈ pc.1.set :=
  View.cover_of_tiled [⟨rD0, p0⟩] S400x1.size (by rfl) y
theorem cover0_4 (p0 : Vec F S400x128 .f32) (y : S400x128.Idx) :
    ∃ pc ∈ ([⟨rX0, p0⟩] : List (View.Piece (Elt F) S400x128 .f32)), y ∈ pc.1.set :=
  View.cover_of_tiled [⟨rX0, p0⟩] S400x128.size (by rfl) y

/-! ## The body's triple -/

set_option maxHeartbeats 1000000 in
/-- The body on whole staging buffers — the inputs' at read contents x0, x1, x2, the results' at anything — runs to
    the continuation holding the inputs' as they were and each result's at its store's payload. -/
theorem sound_kernel0 (c : Dev nD) (E : Set ℕ) (i : grid0.Coords)
    (arg1 : Memref sig .tc .vmem S400x10000 .f32) (harg1 : arg1.IsWhole) (arg2 : Memref sig .tc .vmem S400x128 .f32) (harg2 : arg2.IsWhole)
    (arg3 : Memref sig .tc .vmem S128x128 .f32) (harg3 : arg3.IsWhole) (arg4 : Memref sig .tc .vmem S400x1 .f32) (harg4 : arg4.IsWhole)
    (arg5 : Memref sig .tc .vmem S400x128 .f32) (harg5 : arg5.IsWhole)
    (x0 : Vec F S400x10000 .f32) (x1 : Vec F S400x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__prep_body i arg1 harg1 arg2 harg2 arg3 harg3 arg4 harg4 arg5 harg5) K := by
  simp only [cc0__prep_body_eq_skeleton]; unfold cc0__prep_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The region's proof data on core c: the arrays as the region finds them; after the body at point t each input's buffer at
    its block and each result's at its payload of the input blocks; the scoped rest and the generator register ride along
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The second pass of the layer (aggregation over the neighbours, self loop, row scaling, cut at zero) as one pipelined
  region, at any float instance.

  The grid has 25 points; point t works on rows 400·t … 400·t+399. Its five windows: the adjacency's row slab
  [400, 10000] (window 0); the scaled linear layer WHOLE, [10000, 128] (window 1, fetched once) and, of the SAME array,
  the row block [400, 128] (window 2); the column of inverse square roots' block [400, 1] (window 3); and the result's
  row block [400, 128] (window 4). The body reads the four inputs whole and stores the result block whole, once.
  Two input windows read one array: each holds it at half the full share.
  Stated at a PARAMETER V, the buffer contents when the region is entered.
-/
import proofs.«129218_g66864050864945_cont_9to1_m_323_3_alg».proof.Proof.Gen.Kernel.Launch
import proofs.«129218_g66864050864945_cont_9to1_m_323_3_alg».proof.Proof.Gen.Kernel.Skeleton
import proofs.«129218_g66864050864945_cont_9to1_m_323_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block index
    has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev rAdj1 : Rect S400x10000 := Rect.unit (s := S400x10000) ![0, 0] S400x10000.size inb_S400x10000_S400x10000_0_0
abbrev rG1 : Rect S10000x128 := Rect.unit (s := S10000x128) ![0, 0] S10000x128.size inb_S10000x128_S10000x128_0_0
abbrev rX1 : Rect S400x128 := Rect.unit (s := S400x128) ![0, 0] S400x128.size inb_S400x128_S400x128_0_0
abbrev rD1 : Rect S400x1 := Rect.unit (s := S400x1) ![0, 0] S400x1.size inb_S400x1_S400x1_0_0

/-! ## What the body leaves in the result's buffer -/

/-- The result block after the body: its one whole-block store, of the four inputs' payload (the slab, the whole scaled
    layer, the column's block, the scaled layer's own block). -/
def out1_4 (x0 : Vec F S400x10000 .f32) (x1 : Vec F S10000x128 .f32) (x2 : Vec F S400x128 .f32) (x3 : Vec F S400x1 .f32) : Vec F S400x128 .f32 :=
  View.canon [⟨rX1, k1_pay1 (View.ld x0 rAdj1) (View.ld x1 rG1) (View.ld x3 rD1) (View.ld x2 rX1)⟩]

/-- A whole-block store covers the block. -/
theorem cover1_4 (p0 : Vec F S400x128 .f32) (y : S400x128.Idx) :
    ∃ pc ∈ ([⟨rX1, p0⟩] : List (View.Piece (Elt F) S400x128 .f32)), y ∈ pc.1.set :=
  View.cover_of_tiled [⟨rX1, p0⟩] S400x128.size (by rfl) y

/-! ## The body's triple -/

set_option maxHeartbeats 1000000 in
/-- The body on whole staging buffers — the inputs' at read contents x0 … x3, the result's at anything — runs to the
    continuation holding the inputs' as they were and the result's at its store's payload. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x1 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (x3 : Vec F S400x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__mm_body i arg1 harg1 arg2 harg2 arg3 harg3 arg4 harg4 arg5 harg5) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The region's proof data on core c: the arrays as the region finds them; after the body at point t each input's buffer at
    its block and the result's at its payload of the input blocks; the scoped rest and the generator register ride along
    untouched; nothing owed; the two windows on one array at its two half shares, every other at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program's run, at any float instance: @main is the first pass's region followed by the second pass's region,
  with no host operation between them.

  The buffer contents at the three boundaries: at launch the memory; after the first region its two result arrays hold what
  the write-backs leave and every other buffer is unchanged; after the second region the result array holds what its
  write-backs leave and every other buffer is unchanged (its four inputs are only read). The second region reads one array —
  the scaled linear layer — through two windows, whole and by row blocks: at entry that buffer's full share is split into
  two halves, one per window, and at exit the halves, still holding the same contents, are joined back.
  The run's post names the result array as the second region's write-backs fold, and has the three arguments as launched.
-/
import proofs.«129218_g66864050864945_cont_9to1_m_323_3_alg».proof.Proof.BitsRegion0
import proofs.«129218_g66864050864945_cont_9to1_m_323_3_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references: what the first region is entered from. -/
abbrev Ve0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: the first region's exit, the second's entry. -/
abbrev Ve1 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Ve1 m ρ c (Pipeline.arrRef spec0 w) :=
  (W1_arr m ρ c w).symm
theorem hrest0 (c : Dev nD) : ∀ b, b ∉ Finset.univ.image (Pipeline.arrRef spec0) → Ve1 m ρ c b = Ve0 m ρ c b :=
  fun b hb => W1_of_ne m ρ c b fun w e => hb (Finset.mem_image.mpr ⟨w, Finset.mem_univ _, e⟩)

/-- At the second region's exit: the result array at what the pipeline leaves, every other buffer as entered. -/
def Ve2 : (c : Dev nD) → (b : Ref sig .tc) → Buf (Elt F) ((c : Thread nD τ).loc b) := fun c =>
  Function.update (Ve1 m ρ c) main_v1 ((dat1 (Ve1 m ρ) c).arrAt 4 cfg1.N)
theorem Ve2_res (c : Dev nD) : Ve2 m ρ c main_v1 = (dat1 (Ve1 m ρ) c).arrAt 4 cfg1.N := by
  unfold Ve2; exact Function.update_self ..
theorem Ve2_of_ne (c : Dev nD) (b : Ref sig .tc) (hb : b ≠ main_v1) : Ve2 m ρ c b = Ve1 m ρ c b := by
  unfold Ve2; exact Function.update_of_ne hb ..

/-! ## The arguments end as launched -/

theorem Ve1_main_arg0 (c : Dev nD) : Ve1 m ρ c main_arg0 = m ((c : Thread nD τ).loc main_arg0) :=
  ((W1_arr m ρ c 1).trans (((dat0 (Ve0 m ρ) c).arrAt_in 1 rfl _).trans (A_eq0 (Ve0 m ρ) c 1))).trans rfl
theorem Ve1_main_arg1 (c : Dev nD) : Ve1 m ρ c main_arg1 = m ((c : Thread nD τ).loc main_arg1) :=
  ((W1_arr m ρ c 0).trans (((dat0 (Ve0 m ρ) c).arrAt_in 0 rfl _).trans (A_eq0 (Ve0 m ρ) c 0))).trans rfl
theorem Ve1_main_arg2 (c : Dev nD) : Ve1 m ρ c main_arg2 = m ((c : Thread nD τ).loc main_arg2) :=
  ((W1_arr m ρ c 2).trans (((dat0 (Ve0 m ρ) c).arrAt_in 2 rfl _).trans (A_eq0 (Ve0 m ρ) c 2))).trans rfl
/-- The first region's two results, as the second region finds them. -/
theorem Ve1_main_v0_0 (c : Dev nD) : Ve1 m ρ c main_v0_0 = (dat0 (Ve0 m ρ) c).arrAt 3 cfg0.N := W1_arr m ρ c 3
theorem Ve1_main_v0_1 (c : Dev nD) : Ve1 m ρ c main_v0_1 = (dat0 (Ve0 m ρ) c).arrAt 4 cfg0.N := W1_arr m ρ c 4

/-! ## The unscoped buffers, one by one -/

/-- The six unscoped buffers: the three arguments, the first region's two results, the second region's result. -/
theorem ucList : (Finset.univ.filter fun b : Ref sig .tc => ¬ b.isScoped)
    = ([main_arg0, main_arg1, main_arg2, main_v0_0, main_v0_1, main_v1] : List (Ref sig .tc)).toFinset := by decide

theorem unscopedBufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)) := by
  unfold unscopedBufs
  exact bigSep_eq_bigSepL_of_eq _ ucList (by decide) _

/-- The second region's arrays, window by window: the adjacency, the scaled layer at its two half shares, the column, the result. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_arg1) ↦{fullShare} Fa 0) ∗ (((c : Thread nD τ).loc main_v0_1) ↦{fullShare.left} Fa 1)
          ∗ (((c : Thread nD τ).loc main_v0_1) ↦{fullShare.right} Fa 2) ∗ (((c : Thread nD τ).loc main_v0_0) ↦{fullShare} Fa 3)
          ∗ (((c : Thread nD τ).loc main_v1) ↦{fullShare} Fa 4)) := by
  unfold Pipeline.Dat.arrays
  rw [bigSep_W1]
  rw [(arr_whole1 0).set_eq_univ, (arr_whole1 1).set_eq_univ, (arr_whole1 3).set_eq_univ, (arr_whole1 4).set_eq_univ]
  rfl

/-- ENTRY of the second region: the six buffers at V make its arrays at V (the shared one split in two halves) and the two
    buffers it does not touch. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_eq, arrays1_eq, unscopedRest1_eq]
  have hsh : ((((c : Thread nD τ).loc main_v0_1) ↦{fullShare} V c main_v0_1) : sProp 𝕄)
      ⊢ iprop((((c : Thread nD τ).loc main_v0_1) ↦{fullShare.left} V c main_v0_1) ∗ (((c : Thread nD τ).loc main_v0_1) ↦{fullShare.right} V c main_v0_1)) :=
    (pointsTo_share (PosShare.mem_left_op_right fullShare)).1
  iintro ⟨Ha0, Ha1, Ha2, Hd, Hg, Ho⟩
  ihave Hg2 := hsh $$ Hg
  icases Hg2 with ⟨Hgl, Hgr⟩
  isplitl [Ha1 Hgl Hgr Hd Ho]
  · isplitl [Ha1]; · iexact Ha1
    isplitl [Hgl]; · iexact Hgl
    isplitl [Hgr]; · iexact Hgr
    isplitl [Hd]; · iexact Hd
    iexact Ho
  isplitl [Ha0]; · iexact Ha0
  iexact Ha2

/-- EXIT of the second region: its arrays as the pipeline leaves them — the inputs as entered, so the two halves of the
    shared buffer still agree and join — and the two untouched buffers make the six buffers at the exit contents. -/
theorem exit1 (V V' : (c : Dev nD) → (b : Ref sig .tc) → Buf (Elt F) ((c : Thread nD τ).loc b)) (c : Dev nD)
    (hres : V' c main_v1 = (dat1 V c).arrAt 4 cfg1.N) (hne : ∀ b, b ≠ main_v1 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [unscopedBufs_eq, arrays1_eq, unscopedRest1_eq, hres,
    hne main_arg0 (by decide), hne main_arg1 (by decide), hne main_arg2 (by decide), hne main_v0_0 (by decide), hne main_v0_1 (by decide),
    (dat1 V c).arrAt_in 0 rfl, (dat1 V c).arrAt_in 1 rfl, (dat1 V c).arrAt_in 2 rfl, (dat1 V c).arrAt_in 3 rfl]
  have hsh : iprop((((c : Thread nD τ).loc main_v0_1) ↦{fullShare.left} V c main_v0_1) ∗ (((c : Thread nD τ).loc main_v0_1) ↦{fullShare.right} V c main_v0_1))
      ⊢ ((((c : Thread nD τ).loc main_v0_1) ↦{fullShare} V c main_v0_1) : sProp 𝕄) :=
    (pointsTo_share (PosShare.mem_left_op_right fullShare)).2
  iintro ⟨⟨Ha1, Hgl, Hgr, Hd, Ho⟩, Ha0, Ha2⟩
  ihave Hg := hsh $$ [Hgl Hgr]
  · isplitl [Hgl]; · iexact Hgl
    iexact Hgr
  isplitl [Ha0]; · iexact Ha0
  isplitl [Ha1]; · iexact Ha1
  isplitl [Ha2]; · iexact Ha2
  isplitl [Hd]; · iexact Hd
  isplitl [Hg]; · iexact Hg
  iexact Ho

end Cert.Kernel.Hand

end
-- ==== Proof.BitsRunMain.lean ====
/-
  The launch of the two-region program over its thread states, at any float instance: each pass's region as a segment
  entered from every unscoped buffer at one boundary's contents and left at the next one's, and the run's post read off the
  last boundary — the result array at the second region's write-backs fold, the three arguments as launched.
-/
import proofs.«129218_g66864050864945_cont_9to1_m_323_3_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary's contents as a valuation of every device reference: the first boundary's, but for the result array. -/
def W2 (c : Dev nD) : Valuation τ sig (Elt F) :=
  Function.update (W1 m ρ c) main_v1 (Ve2 m ρ c main_v1)
theorem W2_eq (c : Dev nD) : (fun b : Ref sig .tc => W2 m ρ c b) = Ve2 m ρ c := by
  funext b
  by_cases hb : b = main_v1
  · subst hb; unfold W2; exact Function.update_self ..
  · unfold W2
    exact (Function.update_of_ne (StableHlo.devRef_ne_of_ne hb : (Proc.devRef .tc b : DevRef τ sig) ≠ Proc.devRef .tc main_v1) ..).trans
      (Ve2_of_ne m ρ c b hb).symm
/-- The last thread state without the dues: every unscoped buffer at the last boundary's contents, the generator register at some state. -/
abbrev Tₙ (c : Dev nD) : sProp 𝕄 :=
  iprop(unscopedBufs (Ix := Unit) (Name := ℕ) (U := UR sig nD τ) (Lvl := ℕ) c (Ve2 m ρ c) ∗ ∃ r, prngReg c r)

/-! ## The regions as segments -/

set_option backward.isDefEq.respectTransparency.types false in
/-- The first region over the thread state: entered from every unscoped buffer at the launch contents, left at the first
    boundary's. Its arrays are split out of the unscoped buffers and put back at the exit contents; the generator register goes
    into the invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(unscopedBufs (Ix := Unit) (Name := ℕ) (U := UR sig nD τ) (Lvl := ℕ) c (Ve0 m ρ c) ∗ R c)
  post c := iprop(unscopedBufs (Ix := Unit) (Name := ℕ) (U := UR sig nD τ) (Lvl := ℕ) c (Ve1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first boundary's contents, left at the
    last boundary's. Two of its windows read one array: the entry splits that buffer's share in two and the exit joins the halves. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(unscopedBufs (Ix := Unit) (Name := ℕ) (U := UR sig nD τ) (Lvl := ℕ) c (Ve1 m ρ c) ∗ R c)
  post c := iprop(unscopedBufs (Ix := Unit) (Name := ℕ) (U := UR sig nD τ) (Lvl := ℕ) c (Ve2 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit : (unscopedBufs (Ix := Unit) (Name := ℕ) (U := UR sig nD τ) (Lvl := ℕ) c (Ve1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (Ve1 m ρ c)) :=
      entry1 (Ve1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (Ve1 m ρ c))
        ⊢ (unscopedBufs (Ix := Unit) (Name := ℕ) (U := UR sig nD τ) (Lvl := ℕ) c (Ve2 m ρ c) : sProp 𝕄) :=
      exit1 (Ve1 m ρ) (Ve2 m ρ) c (Ve2_res m ρ c) (fun b hb => Ve2_of_ne m ρ c b hb)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's two segments in order: a region per pass. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and every final
    state has the result array at the second region's write-backs fold and the three argument arrays as launched. -/
theorem run_main : θ_run defs (onTc (τ := τ) (main (F := F))) ⟨m, fun _ => 0, ρ⟩ (fun r => ∀ c : Dev nD,
      r.2.mem ((c.tc : Thread nD τ).loc main_v1) = (dat1 (Ve1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs (Ix := Unit) (Name := ℕ) (U := UR sig nD τ) (Lvl := ℕ) c (Ve0 m ρ c) ∗ R c)) (Tₙ := Tₙ m ρ)
    (hch := ⟨fun _ => .rfl, fun _ => .rfl, fun c => by
      show iprop(unscopedBufs (Ix := Unit) (Name := ℕ) (U := UR sig nD τ) (Lvl := ℕ) c (Ve2 m ρ c) ∗ R c) ⊢ iprop(Tₙ m ρ c ∗ ∃ W, owes (c : Thread nD τ) (0 : CellTallies nD τ sig Unit) W)
      iintro ⟨Hb, Hp, HO⟩
      isplitl [Hb Hp]
      · isplitl [Hb]; · iexact Hb
        iexact Hp
      iexact HO⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      rw [show (Tₙ m ρ c : sProp 𝕄) = iprop(StableHlo.held (c : Thread nD τ) (Pipeline.ucRefs τ sig) (W2 m ρ c) ∗ ∃ r, prngReg c r) from by
        unfold Tₙ; rw [← W2_eq m ρ c, Pipeline.unscopedBufs_held c (W2 m ρ c)]]
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans ((congrFun (W2_eq m ρ c) main_v1).trans (Ve2_res m ρ c)),
       (h c _ (mem_uc main_arg0 (by decide))).trans ((congrFun (W2_eq m ρ c) main_arg0).trans ((Ve2_of_ne m ρ c main_arg0 (by decide)).trans (Ve1_main_arg0 m ρ c))),
       (h c _ (mem_uc main_arg1 (by decide))).trans ((congrFun (W2_eq m ρ c) main_arg1).trans ((Ve2_of_ne m ρ c main_arg1 (by decide)).trans (Ve1_main_arg1 m ρ c))),
       (h c _ (mem_uc main_arg2 (by decide))).trans ((congrFun (W2_eq m ρ c) main_arg2).trans ((Ve2_of_ne m ρ c main_arg2 (by decide)).trans (Ve1_main_arg2 m ρ c)))⟩)

end Cert.Kernel.Hand

end
-- ==== Proof.PayLayout.lean ====
/-
  Two layout operations of a column read at an index by coordinates: a vector cast to a column, and a column
  broadcast along the second axis. Both are instances of the library's general layout lemmas at the two small shapes.
-/
import Idealize.ShloMosaic.Lib.Pipeline.Value
import Idealize.ShloMosaic.Lib.ValueIdx

namespace Cert.KernelIdeal.Pay

open Idealize.ShloMosaic Idealize.ShloMosaic.ValueIdx

/-- A vector of `a` entries cast to an `[a, 1]` column reads, at `(p, u)`, the vector at `p`: both indices have
    row-major position `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Pay
-- ==== Proof.PayPrep.lean ====
/-
  The first payload of the preparation step read at an index, over the extended reals: the column entry of row `p`
  is the inverse square root of (the sum of row `p` of the adjacency block, plus one) clamped below at ε.
-/
import proofs.«129218_g66864050864945_cont_9to1_m_323_3_alg».proof.Proof.Gen.KernelIdeal.Skeleton
import proofs.«129218_g66864050864945_cont_9to1_m_323_3_alg».proof.Proof.Spec
import proofs.«129218_g66864050864945_cont_9to1_m_323_3_alg».proof.Proof.PayLayout
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The lane sum -/

/-- The sum along axis 1 of a `[400, 10000]` block, read at row `p`, is the sum of that row's entries. -/
theorem laneSum_apply (v0 : FVec Ideal S400x10000 .f32) (h : S400x10000.Reduces [1] S400) (hφ : FKind.Formats .f32)
    (hacc : (0x00000000#32 : BitVec 32) = FKind.add.neutral .f32 hφ) (p : Fin 400) :
    multiReduction .add [1] S400 v0 0x00000000#32 h hφ hacc (ix1 p) = ∑ k : Fin 10000, v0 (ix2 p k) := by
  refine (Ideal.multiReduction_add_single v0 0x00000000#32 h hφ hacc (ix1 p)).trans ?_
  refine Finset.sum_congr rfl fun k _ => congrArg v0 ?_
  funext a
  match a with
  | ⟨0, _⟩ => rfl
  | ⟨1, _⟩ => rfl

/-! ## The inverse-square-root column -/

/-- The prepared column at row `p`: the inverse square root of the row sum plus one, clamped below at ε. -/
theorem dcol_apply (v0 : Vec Ideal S400x10000 .f32) (p : Fin 400) :
    k0_pay1 (F := Ideal) v0 (ix2 p (0 : Fin 1))
      = Ideal.rsqrt (max ((∑ k : Fin 10000, v0 (ix2 p k)) + Cert.Spec.one) Cert.Spec.eps) := by
  unfold k0_pay1 Cert.Spec.one Cert.Spec.eps
  show Ideal.rsqrt (max ((shapeCast S400x1 (multiReduction (F := Ideal) .add [1] S400 v0 0x00000000#32 _ _ _) _
      (ix2 p (0 : Fin 1)) : EReal) + Ideal.ofBits .f32 0x3F800000#32) (Ideal.ofBits .f32 0x322BCC77#32)) = _
  refine congrArg (fun t => Ideal.rsqrt (max (t + _) _)) ?_
  refine (shapeCast_a_a1_apply _ _ p 0).trans ?_
  exact laneSum_apply v0 _ _ _ p

end Cert.KernelIdeal.Pay

end
-- ==== Proof.PayMm.lean ====
/-
  The two matrix products of the kernel read at an index, over the extended reals, and with them the second payload
  of the preparation step (the scaled linear layer) and the payload of the product step (the result block).
  A product into the zero accumulator is the plain sum over the one contraction coordinate of the operands' products;
  the first contracts both operands along their second axes (X · Wᵀ), the second the left operand's second axis with
  the right operand's first.
-/
import proofs.«129218_g66864050864945_cont_9to1_m_323_3_alg».proof.Proof.Gen.KernelIdeal.Skeleton
import proofs.«129218_g66864050864945_cont_9to1_m_323_3_alg».proof.Proof.Spec
import proofs.«129218_g66864050864945_cont_9to1_m_323_3_alg».proof.Proof.PayLayout
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The operand indices of the product contracted along both second axes -/

theorem lhsXW_0 (i : S400x128.Idx) (c : dot_S400x128_S128x128_S400x128_1_1_0_0_n_n.contr.Idx) :
    (dot_S400x128_S128x128_S400x128_1_1_0_0_n_n.lhsIdx i c 0).val = (i 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl
theorem lhsXW_1 (i : S400x128.Idx) (c : dot_S400x128_S128x128_S400x128_1_1_0_0_n_n.contr.Idx) :
    (dot_S400x128_S128x128_S400x128_1_1_0_0_n_n.lhsIdx i c 1).val = (c ⟨0, by decide⟩).val :=
  dot_S400x128_S128x128_S400x128_1_1_0_0_n_n.lhsIdx_val_of_single rfl i c
theorem rhsXW_0 (i : S400x128.Idx) (c : dot_S400x128_S128x128_S400x128_1_1_0_0_n_n.contr.Idx) :
    (dot_S400x128_S128x128_S400x128_1_1_0_0_n_n.rhsIdx i c 0).val = (i 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl
theorem rhsXW_1 (i : S400x128.Idx) (c : dot_S400x128_S128x128_S400x128_1_1_0_0_n_n.contr.Idx) :
    (dot_S400x128_S128x128_S400x128_1_1_0_0_n_n.rhsIdx i c 1).val = (c ⟨0, by decide⟩).val :=
  dot_S400x128_S128x128_S400x128_1_1_0_0_n_n.rhsIdx_val_of_single rfl i c

/-- The product X · Wᵀ into the zero accumulator at `(p, q)`: the sum over `k` of `X (p, k) · W (q, k)`. -/
theorem mmXW_apply (x : FVec Ideal S400x128 .f32) (w : FVec Ideal S128x128 .f32) (p : Fin 400) (q : Fin 128) :
    matmul (F := Ideal) dot_S400x128_S128x128_S400x128_1_1_0_0_n_n none x w (constant S400x128 .f32 0x00000000#32) (ix2 p q)
      = ∑ k : Fin 128, x (ix2 p k) * w (ix2 q k) := by
  refine (Ideal.matmul_constant_zero_apply dot_S400x128_S128x128_S400x128_1_1_0_0_n_n none x w (ix2 p q)).trans ?_
  rw [← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p q) ((contrEquiv1 dot_S400x128_S128x128_S400x128_1_1_0_0_n_n 128 rfl rfl).symm k) = ix2 p k :=
    funext fun a => Fin.ext (by
      match a with
      | ⟨0, _⟩ => exact lhsXW_0 _ _
      | ⟨1, _⟩ => exact (lhsXW_1 _ _).trans hk)
  have er : dot_S400x128_S128x128_S400x128_1_1_0_0_n_n.rhsIdx (ix2 p q) ((contrEquiv1 dot_S400x128_S128x128_S400x128_1_1_0_0_n_n 128 rfl rfl).symm k) = ix2 q k :=
    funext fun a => Fin.ext (by
      match a with
      | ⟨0, _⟩ => exact rhsXW_0 _ _
      | ⟨1, _⟩ => exact (rhsXW_1 _ _).trans hk)
  rw [el, er]

/-! ## The operand indices of the product contracted second axis against first axis -/

theorem lhsAG_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhsAG_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem rhsAG_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem rhsAG_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product A · G into the zero accumulator at `(p, q)`: the sum over `j` of `A (p, j) · G (j, q)`. -/
theorem mmAG_apply (x : FVec Ideal S400x10000 .f32) (w : FVec Ideal S10000x128 .f32) (p : Fin 400) (q : Fin 128) :
    matmul (F := Ideal) dot_S400x10000_S10000x128_S400x128_1_0_0_1_n_n none x w (constant S400x128 .f32 0x00000000#32) (ix2 p q)
      = ∑ j : Fin 10000, x (ix2 p j) * w (ix2 j q) := by
  refine (Ideal.matmul_constant_zero_apply dot_S400x10000_S10000x128_S400x128_1_0_0_1_n_n none x w (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact lhsAG_0 _ _
      | ⟨1, _⟩ => exact (lhsAG_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (rhsAG_0 _ _).trans hk
      | ⟨1, _⟩ => exact rhsAG_1 _ _)
  rw [el, er]

/-! ## The two payloads -/

/-- The scaled linear layer's block at `(p, q)`: the column's entry of row `p` times `(X · Wᵀ) (p, q)`. -/
theorem g_apply (v0 : Vec Ideal S400x10000 .f32) (v9 : Vec Ideal S400x128 .f32) (v10 : Vec Ideal S128x128 .f32)
    (p : Fin 400) (q : Fin 128) :
    k0_pay2 (F := Ideal) v0 v9 v10 (ix2 p q)
      = k0_pay1 (F := Ideal) v0 (ix2 p (0 : Fin 1)) * ∑ k : Fin 128, v9 (ix2 p k) * v10 (ix2 q k) := by
  unfold k0_pay2
  refine (mulf_apply _ _ (ix2 p q)).trans ?_
  exact congrArg₂ (· * ·) (broadcastTo_a1_ab_apply _ _ p q) (mmXW_apply v9 v10 p q)

/-- The result block at `(p, q)`: the column's entry of row `p` times (`(A · G) (p, q)` plus the block's own entry),
    clamped below at zero. -/
theorem out_apply (v0 : Vec Ideal S400x10000 .f32) (v1 : Vec Ideal S10000x128 .f32) (v4 : Vec Ideal S400x1 .f32)
    (v6 : Vec Ideal S400x128 .f32) (p : Fin 400) (q : Fin 128) :
    k1_pay1 (F := Ideal) v0 v1 v4 v6 (ix2 p q)
      = max (v4 (ix2 p (0 : Fin 1)) * ((∑ j : Fin 10000, v0 (ix2 p j) * v1 (ix2 j q)) + v6 (ix2 p q))) 0 := by
  unfold k1_pay1
  refine (maximumf_apply _ _ (ix2 p q)).trans ?_
  refine congrArg₂ max ?_ Ideal.ofBits_zero_f32
  refine (mulf_apply _ _ (ix2 p q)).trans ?_
  refine congrArg₂ (· * ·) ?_ ?_
  · exact (broadcastTo_a1_ab_apply _ _ p q).trans (congrFun (shapeCast_self v4 _) _)
  · refine (addf_apply _ _ (ix2 p q)).trans ?_
    refine congrArg₂ (· + ·) ?_ (congrFun (shapeCast_self v6 _) _)
    refine (mmAG_apply v0 _ p q).trans ?_
    exact Finset.sum_congr rfl fun j _ => congrArg (v0 (ix2 p j) * ·) (congrFun (shapeCast_self v1 _) _)

end Cert.KernelIdeal.Pay

end
-- ==== Proof.KernelValue0.lean ====
/-
  The first pass's two result arrays after its 25 points, over the extended reals: the column of inverse square roots
  of the clamped degrees, and the scaled linear layer. Point t's block of each result is rows 400·t … 400·t+399 of one
  function of the three argument arrays — the payload read at an index, each input block read where the result's own
  rows sit — and the 25 row blocks cover the array.
-/
import proofs.«129218_g66864050864945_cont_9to1_m_323_3_alg».proof.Proof.Region0
import proofs.«129218_g66864050864945_cont_9to1_m_323_3_alg».proof.Proof.Spec
import proofs.«129218_g66864050864945_cont_9to1_m_323_3_alg».proof.Proof.PayPrep
import proofs.«129218_g66864050864945_cont_9to1_m_323_3_alg».proof.Proof.PayMm
import Idealize.ShloMosaic.Lib.Pipeline.Value
import Idealize.ShloMosaic.Lib.ValueIdx

noncomputable section

open scoped BigOperators

namespace Cert.KernelIdeal.KValue0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Zero offsets, and the block index maps over the grid -/

theorem zeroOff : (![0, 0] : Fin 2 → Nat) = fun _ => 0 := funext fun a => by fin_cases a <;> rfl

/-- Every row-blocked window of the first pass sits at block index (t, 0); the weights' window at (0, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The payloads of blocks that are rows of the arrays -/

/-- If row `p` of the slab is row `r` of the adjacency, the column's entry of row `p` is row `r`'s inverse square
    root of the clamped degree. -/
theorem dcol_rows (A : S10000x10000.Idx → EReal) (x0 : Vec Ideal S400x10000 .f32) (r : Fin 10000) (p : Fin 400)
    (h0 : ∀ k : Fin 10000, x0 (ix2 p k) = A (ix2 r k)) :
    k0_pay1 (F := Ideal) x0 (ix2 p (0 : Fin 1)) = Cert.Spec.dinv A r := by
  refine (Pay.dcol_apply x0 p).trans ?_
  unfold Cert.Spec.dinv Cert.Spec.deg
  refine congrArg (fun s => Ideal.rsqrt (max (s + Cert.Spec.one) Cert.Spec.eps)) ?_
  exact Finset.sum_congr rfl fun k _ => h0 k

/-- If moreover row `p` of the features' block is row `r` of the features and row `q` of the weights' block is row
    `q'` of the weights, the scaled layer's entry at `(p, q)` is the array's at `(r, q')`. -/
theorem g_rows (A : S10000x10000.Idx → EReal) (X : S10000x128.Idx → EReal) (W : S128x128.Idx → EReal)
    (x0 : Vec Ideal S400x10000 .f32) (x1 : Vec Ideal S400x128 .f32) (x2 : Vec Ideal S128x128 .f32)
    (r : Fin 10000) (p : Fin 400) (q q' : Fin 128)
    (h0 : ∀ k : Fin 10000, x0 (ix2 p k) = A (ix2 r k))
    (h1 : ∀ k : Fin 128, x1 (ix2 p k) = X (ix2 r k))
    (h2 : ∀ k : Fin 128, x2 (ix2 q k) = W (ix2 q' k)) :
    k0_pay2 (F := Ideal) x0 x1 x2 (ix2 p q) = Cert.Spec.g A X W r q' := by
  refine (Pay.g_apply x0 x1 x2 p q).trans ?_
  unfold Cert.Spec.g Cert.Spec.lin
  refine congrArg₂ (· * ·) (dcol_rows A x0 r p h0) (Finset.sum_congr rfl fun k _ => ?_)
  rw [h1 k, h2 k]

/-- The column's whole block, given where each of its indices sits in the array (`e`). -/
theorem dcol_block (A : S10000x10000.Idx → EReal) (x0 : Vec Ideal S400x10000 .f32) (e : S400x1.Idx → S10000x1.Idx)
    (h0 : ∀ (y : S400x1.Idx) (k : Fin 10000), x0 (ix2 (y 0) k) = A (ix2 (e y 0) k)) :
    k0_pay1 (F := Ideal) x0 = fun y => Cert.Spec.dinvArr A (e y) := by
  funext y
  obtain ⟨p, u, rfl⟩ : ∃ (p : Fin 400) (u : Fin 1), y = ix2 p u := ⟨y 0, y 1, eq_ix2 y⟩
  obtain rfl : u = 0 := Subsingleton.elim _ _
  exact dcol_rows A x0 _ p (h0 (ix2 p 0))

/-- The scaled layer's whole block likewise. -/
theorem g_block (A : S10000x10000.Idx → EReal) (X : S10000x128.Idx → EReal) (W : S128x128.Idx → EReal)
    (x0 : Vec Ideal S400x10000 .f32) (x1 : Vec Ideal S400x128 .f32) (x2 : Vec Ideal S128x128 .f32)
    (e : S400x128.Idx → S10000x128.Idx)
    (h0 : ∀ (y : S400x128.Idx) (k : Fin 10000), x0 (ix2 (y 0) k) = A (ix2 (e y 0) k))
    (h1 : ∀ (y : S400x128.Idx) (k : Fin 128), x1 (ix2 (y 0) k) = X (ix2 (e y 0) k))
    (h2 : ∀ (y : S400x128.Idx) (k : Fin 128), x2 (ix2 (y 1) k) = W (ix2 (e y 1) k)) :
    k0_pay2 (F := Ideal) x0 x1 x2 = fun y => Cert.Spec.gArr A X W (e y) := by
  funext y
  obtain ⟨p, q, rfl⟩ : ∃ (p : Fin 400) (q : Fin 128), y = ix2 p q := ⟨y 0, y 1, eq_ix2 y⟩
  exact g_rows A X W x0 x1 x2 _ p q _ (h0 (ix2 p q)) (h1 (ix2 p q)) (h2 (ix2 p q))

/-! ## What each point writes back -/

/-- Point `t` writes back block `t` of the column of inverse square roots. -/
theorem flushed0_3_eq (c : Dev nD) (t : Fin cfg0.N) :
    (dat0 V c).flushed 3 t = ((cfg0.win 3).blk t).view.read (Elt Ideal) (Cert.Spec.dinvArr (V c main_arg1)) := by
  show (cfg0.win 3).cut (grid0.coords t) ((dat0 V c).after 3 t) = _
  rw [after0_3]
  unfold out0_3
  rw [View.canon_unit_zero zeroOff]
  simp only [View.ld_unit_zero (S := S400x10000) zeroOff]
  obtain ⟨e00, e01, -, -, -, -, e30, e31, -, -⟩ := blockIdx0 t
  refine dcol_block (V c main_arg1) (iblk0 V c 0 t) (fun y => ((cfg0.win 3).blk t).view.emb y) fun y k => ?_
  show V c main_arg1 (((cfg0.win 0).blk t).view.emb (ix2 (y 0) k)) = V c main_arg1 _
  refine congrArg (V c main_arg1) (funext fun a => Fin.ext ?_)
  match a with
  | ⟨0, _⟩ =>
    show win0_0.index t (0 : Fin 2) * 400 + 1 * (y 0).val = win0_3.index t (0 : Fin 2) * 400 + 1 * (y 0).val
    rw [e00, e30]
  | ⟨1, _⟩ =>
    show win0_0.index t (1 : Fin 2) * 10000 + 1 * k.val = k.val
    rw [e01]; omega

/-- Point `t` writes back block `t` of the scaled linear layer. -/
theorem flushed0_4_eq (c : Dev nD) (t : Fin cfg0.N) :
    (dat0 V c).flushed 4 t = ((cfg0.win 4).blk t).view.read (Elt Ideal)
      (Cert.Spec.gArr (V c main_arg1) (V c main_arg0) (V c main_arg2)) := by
  show (cfg0.win 4).cut (grid0.coords t) ((dat0 V c).after 4 t) = _
  rw [after0_4]
  unfold out0_4
  rw [View.canon_unit_zero zeroOff]
  simp only [View.ld_unit_zero (S := S400x10000) zeroOff, View.ld_unit_zero (S := S400x128) zeroOff,
    View.ld_unit_zero (S := S128x128) zeroOff]
  obtain ⟨e00, e01, e10, e11, e20, e21, -, -, e40, e41⟩ := blockIdx0 t
  refine g_block (V c main_arg1) (V c main_arg0) (V c main_arg2) (iblk0 V c 0 t) (iblk0 V c 1 t) (iblk0 V c 2 t)
    (fun y => ((cfg0.win 4).blk t).view.emb y) (fun y k => ?_) (fun y k => ?_) (fun y k => ?_)
  · show V c main_arg1 (((cfg0.win 0).blk t).view.emb (ix2 (y 0) k)) = V c main_arg1 _
    refine congrArg (V c main_arg1) (funext fun a => Fin.ext ?_)
    match a with
    | ⟨0, _⟩ =>
      show win0_0.index t (0 : Fin 2) * 400 + 1 * (y 0).val = win0_4.index t (0 : Fin 2) * 400 + 1 * (y 0).val
      rw [e00, e40]
    | ⟨1, _⟩ =>
      show win0_0.index t (1 : Fin 2) * 10000 + 1 * k.val = k.val
      rw [e01]; omega
  · show V c main_arg0 (((cfg0.win 1).blk t).view.emb (ix2 (y 0) k)) = V c main_arg0 _
    refine congrArg (V c main_arg0) (funext fun a => Fin.ext ?_)
    match a with
    | ⟨0, _⟩ =>
      show win0_1.index t (0 : Fin 2) * 400 + 1 * (y 0).val = win0_4.index t (0 : Fin 2) * 400 + 1 * (y 0).val
      rw [e10, e40]
    | ⟨1, _⟩ =>
      show win0_1.index t (1 : Fin 2) * 128 + 1 * k.val = k.val
      rw [e11]; omega
  · show V c main_arg2 (((cfg0.win 2).blk t).view.emb (ix2 (y 1) k)) = V c main_arg2 _
    refine congrArg (V c main_arg2) (funext fun a => Fin.ext ?_)
    match a with
    | ⟨0, _⟩ =>
      show win0_2.index t (0 : Fin 2) * 128 + 1 * (y 1).val = win0_4.index t (1 : Fin 2) * 128 + 1 * (y 1).val
      rw [e20, e41]
    | ⟨1, _⟩ =>
      show win0_2.index t (1 : Fin 2) * 128 + 1 * k.val = k.val
      rw [e21]; omega

/-! ## The blocks cover the arrays -/

theorem mem_blk0_3 (t : Fin cfg0.N) (i : S10000x1.Idx) :
    i ∈ ((cfg0.win 3).blk t).view.set ↔ ∀ a : Fin 2, win0_3.index t a * S400x1.size a ≤ (i a).val
      ∧ (i a).val < win0_3.index t a * S400x1.size a + S400x1.size a := by
  show i ∈ ((View.whole main_v0_0).slice (win0_3.rect t)).set ↔ _
  rw [View.set_slice_whole, Rect.mem_set_unit]
  exact Iff.rfl

theorem mem_blk0_4 (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0_1).slice (win0_4.rect t)).set ↔ _
  rw [View.set_slice_whole, Rect.mem_set_unit]
  exact Iff.rfl

/-- Row `r` of the column is in the block of point `r / 400`. -/
theorem covered0_3 (i : S10000x1.Idx) :
    ∃ t : Fin cfg0.N, (cfg0.win 3).flush t = true ∧ i ∈ ((cfg0.win 3).blk t).view.set := by
  have hN : grid0.N = 25 := N_0
  have hi0 : (i 0).val < 10000 := (i 0).isLt
  have hi1 : (i 1).val < 1 := (i 1).isLt
  have ht : (i 0).val / 400 < grid0.N := by omega
  obtain ⟨-, -, -, -, -, -, e30, e31, -, -⟩ := blockIdx0 ⟨(i 0).val / 400, ht⟩
  refine ⟨⟨(i 0).val / 400, ht⟩, flush0_3 _, ?_⟩
  rw [mem_blk0_3]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    rw [e30]; show (i 0).val / 400 * 400 ≤ (i 0).val ∧ (i 0).val < (i 0).val / 400 * 400 + 400; omega
  | ⟨1, _⟩ =>
    show win0_3.index ⟨(i 0).val / 400, ht⟩ (1 : Fin 2) * 1 ≤ (i 1).val
      ∧ (i 1).val < win0_3.index ⟨(i 0).val / 400, ht⟩ (1 : Fin 2) * 1 + 1
    rw [e31]; omega

/-- Row `r` of the scaled layer is in the block of point `r / 400`. -/
theorem covered0_4 (i : S10000x128.Idx) :
    ∃ t : Fin cfg0.N, (cfg0.win 4).flush t = true ∧ i ∈ ((cfg0.win 4).blk t).view.set := by
  have hN : grid0.N = 25 := N_0
  have hi0 : (i 0).val < 10000 := (i 0).isLt
  have hi1 : (i 1).val < 128 := (i 1).isLt
  have ht : (i 0).val / 400 < grid0.N := by omega
  obtain ⟨-, -, -, -, -, -, -, -, e40, e41⟩ := blockIdx0 ⟨(i 0).val / 400, ht⟩
  refine ⟨⟨(i 0).val / 400, ht⟩, flush0_4 _, ?_⟩
  rw [mem_blk0_4]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, ht⟩ (1 : Fin 2) * 128 ≤ (i 1).val
      ∧ (i 1).val < win0_4.index ⟨(i 0).val / 400, ht⟩ (1 : Fin 2) * 128 + 128
    rw [e41]; omega

/-! ## The two arrays after the pass -/

/-- The column array ends holding the inverse square roots of the clamped degrees. -/
theorem dinv_final (c : Dev nD) : (dat0 (F := Ideal) V c).arrAt 3 cfg0.N = Cert.Spec.dinvArr (V c main_arg1) :=
  (dat0 V c).arrAt_eq_of_cover 3 (Cert.Spec.dinvArr (V c main_arg1)) (fun t _ => flushed0_3_eq V c t) covered0_3

/-- The second result array ends holding the scaled linear layer. -/
theorem g_final (c : Dev nD) :
    (dat0 (F := Ideal) V c).arrAt 4 cfg0.N = Cert.Spec.gArr (V c main_arg1) (V c main_arg0) (V c main_arg2) :=
  (dat0 V c).arrAt_eq_of_cover 4 (Cert.Spec.gArr (V c main_arg1) (V c main_arg0) (V c main_arg2))
    (fun t _ => flushed0_4_eq V c t) covered0_4

end Cert.KernelIdeal.KValue0

end
-- ==== Proof.KernelValue1.lean ====
/-
  The second pass's result array after its 25 points, over the extended reals, as a function of the three arrays the
  pass reads: the adjacency, the column of inverse square roots and the scaled linear layer (read twice: whole, as the
  product's right operand, and by row blocks, as the self loop's term). Point t's block of the result is rows
  400·t … 400·t+399 of that function, and the 25 row blocks cover the array.
-/
import proofs.«129218_g66864050864945_cont_9to1_m_323_3_alg».proof.Proof.Region1
import proofs.«129218_g66864050864945_cont_9to1_m_323_3_alg».proof.Proof.PayMm
import Idealize.ShloMosaic.Lib.Pipeline.Value
import Idealize.ShloMosaic.Lib.ValueIdx

noncomputable section

open scoped BigOperators

namespace Cert.KernelIdeal.KValue1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Zero offsets, and the block index maps over the grid -/

theorem zeroOff1 : (![0, 0] : Fin 2 → Nat) = fun _ => 0 := funext fun a => by fin_cases a <;> rfl

/-- Every row-blocked window of the second pass sits at block index (t, 0); the whole scaled layer's at (0, 0). -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The payload of blocks that are rows of the arrays -/

/-- The result at row `r`, column `q`, of the adjacency `A`, the column `D` and the scaled layer `G`:
    `max (D r · ((Σ_j A r j · G j q) + G r q)) 0`. -/
def outOf (A : S10000x10000.Idx → EReal) (D : S10000x1.Idx → EReal) (G : S10000x128.Idx → EReal) :
    S10000x128.Idx → EReal :=
  fun i => max (D (ix2 (i 0) (0 : Fin 1)) * ((∑ j : Fin 10000, A (ix2 (i 0) j) * G (ix2 j (i 1))) + G (ix2 (i 0) (i 1)))) 0

/-- If row `p` of the slab, of the column's block and of the layer's block are row `r` of their arrays, and column
    `q` of the whole layer's buffer is column `q'` of the layer, the payload at `(p, q)` is the result at `(r, q')`. -/
theorem out_rows (A : S10000x10000.Idx → EReal) (D : S10000x1.Idx → EReal) (G : S10000x128.Idx → EReal)
    (x0 : Vec Ideal S400x10000 .f32) (x1 : Vec Ideal S10000x128 .f32) (x3 : Vec Ideal S400x1 .f32)
    (x2 : Vec Ideal S400x128 .f32) (r : Fin 10000) (p : Fin 400) (q q' : Fin 128)
    (h0 : ∀ j : Fin 10000, x0 (ix2 p j) = A (ix2 r j))
    (h1 : ∀ j : Fin 10000, x1 (ix2 j q) = G (ix2 j q'))
    (h3 : x3 (ix2 p (0 : Fin 1)) = D (ix2 r (0 : Fin 1)))
    (h2 : x2 (ix2 p q) = G (ix2 r q')) :
    k1_pay1 (F := Ideal) x0 x1 x3 x2 (ix2 p q)
      = max (D (ix2 r (0 : Fin 1)) * ((∑ j : Fin 10000, A (ix2 r j) * G (ix2 j q')) + G (ix2 r q'))) 0 := by
  refine (Pay.out_apply x0 x1 x3 x2 p q).trans ?_
  rw [h3, h2]
  refine congrArg (fun s => max (D (ix2 r (0 : Fin 1)) * (s + G (ix2 r q'))) 0) ?_
  exact Finset.sum_congr rfl fun j _ => by rw [h0 j, h1 j]

/-- The result's whole block, given where each of its indices sits in the array (`e`). -/
theorem out_block (A : S10000x10000.Idx → EReal) (D : S10000x1.Idx → EReal) (G : S10000x128.Idx → EReal)
    (x0 : Vec Ideal S400x10000 .f32) (x1 : Vec Ideal S10000x128 .f32) (x3 : Vec Ideal S400x1 .f32)
    (x2 : Vec Ideal S400x128 .f32) (e : S400x128.Idx → S10000x128.Idx)
    (h0 : ∀ (y : S400x128.Idx) (j : Fin 10000), x0 (ix2 (y 0) j) = A (ix2 (e y 0) j))
    (h1 : ∀ (y : S400x128.Idx) (j : Fin 10000), x1 (ix2 j (y 1)) = G (ix2 j (e y 1)))
    (h3 : ∀ y : S400x128.Idx, x3 (ix2 (y 0) (0 : Fin 1)) = D (ix2 (e y 0) (0 : Fin 1)))
    (h2 : ∀ y : S400x128.Idx, x2 (ix2 (y 0) (y 1)) = G (ix2 (e y 0) (e y 1))) :
    k1_pay1 (F := Ideal) x0 x1 x3 x2 = fun y => outOf A D G (e y) := by
  funext y
  obtain ⟨p, q, rfl⟩ : ∃ (p : Fin 400) (q : Fin 128), y = ix2 p q := ⟨y 0, y 1, eq_ix2 y⟩
  exact out_rows A D G x0 x1 x3 x2 _ p q _ (h0 (ix2 p q)) (h1 (ix2 p q)) (h3 (ix2 p q)) (h2 (ix2 p q))

/-! ## What each point writes back -/

/-- Point `t` writes back block `t` of the result. -/
theorem flushed1_4_eq (c : Dev nD) (t : Fin cfg1.N) :
    (dat1 V c).flushed 4 t = ((cfg1.win 4).blk t).view.read (Elt Ideal)
      (outOf (V c main_arg1) (V c main_v0_0) (V c main_v0_1)) := by
  show (cfg1.win 4).cut (grid1.coords t) ((dat1 V c).after 4 t) = _
  rw [after1_4]
  unfold out1_4
  rw [View.canon_unit_zero zeroOff1]
  simp only [View.ld_unit_zero (S := S400x10000) zeroOff1, View.ld_unit_zero (S := S10000x128) zeroOff1,
    View.ld_unit_zero (S := S400x1) zeroOff1, View.ld_unit_zero (S := S400x128) zeroOff1]
  obtain ⟨e00, e01, e10, e11, e20, e21, e30, e31, e40, e41⟩ := blockIdx1 t
  refine out_block (V c main_arg1) (V c main_v0_0) (V c main_v0_1) (iblk1 V c 0 t) (iblk1 V c 1 t) (iblk1 V c 3 t)
    (iblk1 V c 2 t) (fun y => ((cfg1.win 4).blk t).view.emb y) (fun y j => ?_) (fun y j => ?_) (fun y => ?_) (fun y => ?_)
  · show V c main_arg1 (((cfg1.win 0).blk t).view.emb (ix2 (y 0) j)) = V c main_arg1 _
    refine congrArg (V c main_arg1) (funext fun a => Fin.ext ?_)
    match a with
    | ⟨0, _⟩ =>
      show win1_0.index t (0 : Fin 2) * 400 + 1 * (y 0).val = win1_4.index t (0 : Fin 2) * 400 + 1 * (y 0).val
      rw [e00, e40]
    | ⟨1, _⟩ =>
      show win1_0.index t (1 : Fin 2) * 10000 + 1 * j.val = j.val
      rw [e01]; omega
  · show V c main_v0_1 (((cfg1.win 1).blk t).view.emb (ix2 j (y 1))) = V c main_v0_1 _
    refine congrArg (V c main_v0_1) (funext fun a => Fin.ext ?_)
    match a with
    | ⟨0, _⟩ =>
      show win1_1.index t (0 : Fin 2) * 10000 + 1 * j.val = j.val
      rw [e10]; omega
    | ⟨1, _⟩ =>
      show win1_1.index t (1 : Fin 2) * 128 + 1 * (y 1).val = win1_4.index t (1 : Fin 2) * 128 + 1 * (y 1).val
      rw [e11, e41]
  · show V c main_v0_0 (((cfg1.win 3).blk t).view.emb (ix2 (y 0) (0 : Fin 1))) = V c main_v0_0 _
    refine congrArg (V c main_v0_0) (funext fun a => Fin.ext ?_)
    match a with
    | ⟨0, _⟩ =>
      show win1_3.index t (0 : Fin 2) * 400 + 1 * (y 0).val = win1_4.index t (0 : Fin 2) * 400 + 1 * (y 0).val
      rw [e30, e40]
    | ⟨1, _⟩ =>
      show win1_3.index t (1 : Fin 2) * 1 + 1 * 0 = 0
      rw [e31]
  · show V c main_v0_1 (((cfg1.win 2).blk t).view.emb (ix2 (y 0) (y 1))) = V c main_v0_1 _
    refine congrArg (V c main_v0_1) (funext fun a => Fin.ext ?_)
    match a with
    | ⟨0, _⟩ =>
      show win1_2.index t (0 : Fin 2) * 400 + 1 * (y 0).val = win1_4.index t (0 : Fin 2) * 400 + 1 * (y 0).val
      rw [e20, e40]
    | ⟨1, _⟩ =>
      show win1_2.index t (1 : Fin 2) * 128 + 1 * (y 1).val = win1_4.index t (1 : Fin 2) * 128 + 1 * (y 1).val
      rw [e21, e41]

/-! ## The blocks cover the array -/

theorem mem_blk1_4 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v1).slice (win1_4.rect t)).set ↔ _
  rw [View.set_slice_whole, Rect.mem_set_unit]
  exact Iff.rfl

/-- Row `r` of the result is in the block of point `r / 400`. -/
theorem covered1_4 (i : S10000x128.Idx) :
    ∃ t : Fin cfg1.N, (cfg1.win 4).flush t = true ∧ i ∈ ((cfg1.win 4).blk t).view.set := by
  have hN : grid1.N = 25 := N_1
  have hi0 : (i 0).val < 10000 := (i 0).isLt
  have hi1 : (i 1).val < 128 := (i 1).isLt
  have ht : (i 0).val / 400 < grid1.N := by omega
  obtain ⟨-, -, -, -, -, -, -, -, e40, e41⟩ := blockIdx1 ⟨(i 0).val / 400, ht⟩
  refine ⟨⟨(i 0).val / 400, ht⟩, flush1_4 _, ?_⟩
  rw [mem_blk1_4]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e40]; show (i 0).val / 400 * 400 ≤ (i 0).val ∧ (i 0).val < (i 0).val / 400 * 400 + 400; omega
  | ⟨1, _⟩ =>
    show win1_4.index ⟨(i 0).val / 400, ht⟩ (1 : Fin 2) * 128 ≤ (i 1).val
      ∧ (i 1).val < win1_4.index ⟨(i 0).val / 400, ht⟩ (1 : Fin 2) * 128 + 128
    rw [e41]; omega

/-! ## The array after the pass -/

/-- The result array ends holding the result function of the three arrays the pass reads. -/
theorem out_final (c : Dev nD) :
    (dat1 (F := Ideal) V c).arrAt 4 cfg1.N = outOf (V c main_arg1) (V c main_v0_0) (V c main_v0_1) :=
  (dat1 V c).arrAt_eq_of_cover 4 (outOf (V c main_arg1) (V c main_v0_0) (V c main_v0_1))
    (fun t _ => flushed1_4_eq V c t) covered1_4

end Cert.KernelIdeal.KValue1

end
-- ==== Proof.KernelValueOut.lean ====
/-
  The layer's result array after both passes, over the extended reals, as the specification's function of the three
  arguments as launched: the second pass's result function read at the first pass's two results.
-/
import proofs.«129218_g66864050864945_cont_9to1_m_323_3_alg».proof.Proof.Run
import proofs.«129218_g66864050864945_cont_9to1_m_323_3_alg».proof.Proof.Spec
import proofs.«129218_g66864050864945_cont_9to1_m_323_3_alg».proof.Proof.KernelValue0
import proofs.«129218_g66864050864945_cont_9to1_m_323_3_alg».proof.Proof.KernelValue1

noncomputable section

open scoped BigOperators

namespace Cert.KernelIdeal.KValueOut

open Cert.KernelIdeal Cert.KernelIdeal.Gen Cert.KernelIdeal.Hand Cert.KernelIdeal.KValue0 Cert.KernelIdeal.KValue1
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The second pass's result function of the adjacency, of its inverse square roots and of its scaled linear layer is
    the specification's result. -/
theorem outOf_spec (A : S10000x10000.Idx → EReal) (X : S10000x128.Idx → EReal) (W : S128x128.Idx → EReal) :
    outOf A (Cert.Spec.dinvArr A) (Cert.Spec.gArr A X W) = Cert.Spec.outArr A X W := rfl

/-- The column of inverse square roots as the second pass finds it. -/
theorem entry_dinv (c : Dev nD) :
    Ve1 m ρ c main_v0_0 = Cert.Spec.dinvArr (m ((c : Thread nD τ).loc main_arg1)) :=
  (Ve1_main_v0_0 m ρ c).trans (dinv_final (Ve0 m ρ) c)

/-- The scaled linear layer as the second pass finds it. -/
theorem entry_g (c : Dev nD) :
    Ve1 m ρ c main_v0_1 = Cert.Spec.gArr (m ((c : Thread nD τ).loc main_arg1)) (m ((c : Thread nD τ).loc main_arg0))
      (m ((c : Thread nD τ).loc main_arg2)) :=
  (Ve1_main_v0_1 m ρ c).trans (g_final (Ve0 m ρ) c)

/-- The result array after both passes is the specification's result of the three arguments as launched. -/
theorem out_launch (c : Dev nD) :
    (dat1 (F := Ideal) (Ve1 m ρ) c).arrAt 4 cfg1.N
      = Cert.Spec.outArr (m ((c : Thread nD τ).loc main_arg1)) (m ((c : Thread nD τ).loc main_arg0))
          (m ((c : Thread nD τ).loc main_arg2)) := by
  refine (out_final (Ve1 m ρ) c).trans ?_
  rw [Ve1_main_arg1 m ρ c, entry_dinv m ρ c, entry_g m ρ c]
  exact outOf_spec _ _ _

end Cert.KernelIdeal.KValueOut

end
-- ==== Proof.lean ====
/-
  A normalized graph-convolution layer, relu (D^(-1/2) (A + I) D^(-1/2) (X Wᵀ)) with D the clamped degrees of A + I, computed in
  two pipelined passes over row slabs of the adjacency matrix, against the dense formula.

  The kernel never forms the normalized matrix. With dinv r = 1/√(max ((Σ_k A r k) + 1) ε) and g r q = dinv r · (X Wᵀ) r q, its
  first pass stores dinv (as a column) and g, 400 rows per grid point; its second pass stores, per row block,
  max (dinv r · ((Σ_j A r j · g j q) + g r q)) 0. The reference adds the identity matrix, sums rows, clamps at ε, raises to the
  power -1/2, scales the matrix's rows and columns, multiplies by X Wᵀ and cuts at zero. On the extended reals the two agree
  whenever the three inputs are finite: the self loop's term leaves the sum as g r q, the row factor leaves the sum by
  distributivity (which is where finiteness is used), and for a positive real d, d^(-1/2) = 1/√d.

  The kernel's two regions run one after the other; the second reads the first's result g through two windows (whole, and by row
  blocks), so that buffer is held at two half shares while the region runs. Each region's frame is the pipeline's launch over a
  body that loads whole blocks, computes, and stores whole blocks; the same text proves the word-level program's frame. The
  reference's run and its reads at an index are the generated ones.
-/
import proofs.«129218_g66864050864945_cont_9to1_m_323_3_alg».proof.Defs
import proofs.«129218_g66864050864945_cont_9to1_m_323_3_alg».proof.Proof.Assemble
import proofs.«129218_g66864050864945_cont_9to1_m_323_3_alg».proof.Proof.RunMain
import proofs.«129218_g66864050864945_cont_9to1_m_323_3_alg».proof.Proof.BitsRunMain
import proofs.«129218_g66864050864945_cont_9to1_m_323_3_alg».proof.Proof.KernelValueOut
import proofs.«129218_g66864050864945_cont_9to1_m_323_3_alg».proof.Proof.Gen.ReferenceIdeal.Run
import proofs.«129218_g66864050864945_cont_9to1_m_323_3_alg».proof.Proof.Gen.ReferenceIdeal.Read

noncomputable section

namespace Cert.Proof

open Idealize.ShloMosaic Idealize.ShloMosaic.TcCoe Idealize.SL.Sem

/-- Every run of the idealized kernel ends with its result array at the layer's function of the three arguments, and the
    arguments unchanged: the two-region run, its result array read as the specification's. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.Spec.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h c).1.trans (Cert.KernelIdeal.KValueOut.out_launch m ρ c), (h c).2⟩)
    (Cert.KernelIdeal.Hand.run_main (F := Ideal) m ρ)

/-- The five conjuncts: the word-level kernel's and the idealized kernel's frames from their two-region runs, the reference's
    from its run, nothing rewritten by the idealization, and the two idealized programs equal at the extended reals on finite inputs. -/
theorem claim : Cert.Claim :=
  Assemble.claim_of
    (Assemble.frame_p_of (fun _ _ _ => True) fun m ρ =>
      (θ_run Cert.Kernel.defs _ _).mono (fun _ h c => ⟨trivial, (h c).2⟩) (Cert.Kernel.Hand.run_main (F := Bits) m ρ))
    (Assemble.frame_pi_of (fun _ _ _ => True) fun m ρ =>
      (θ_run Cert.KernelIdeal.defs _ _).mono (fun _ h c => ⟨trivial, (h c).2⟩) (Cert.KernelIdeal.Hand.run_main (F := Ideal) m ρ))
    Assemble.frame_ri
    (Assemble.algebraic_of kernel_run)

end Cert.Proof

end
